-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S10000x128 : Shape := ⟨2, ![10000, 128]⟩
abbrev S1x128 : Shape := ⟨2, ![1, 128]⟩

abbrev nBuf : Space → Nat
  | .hbm => 97
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S100000x128, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x128, .f32⟩
  | .hbm, ⟨90, _⟩ => ⟨S1600000x128, .f32⟩
  | .hbm, ⟨91, _⟩ => ⟨S1600000x128, .f32⟩
  | .hbm, ⟨92, _⟩ => ⟨S_, .f32⟩
  | .hbm, ⟨93, _⟩ => ⟨S100000x128, .f32⟩
  | .hbm, ⟨94, _⟩ => ⟨S1600000x1, .i32⟩
  | .hbm, ⟨95, _⟩ => ⟨S100000x128, .f32⟩
  | .hbm, ⟨96, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S128, .f32⟩
  | .local _ .vmem, ⟨16, _⟩ => ⟨S10000x128, .f32⟩
  | .local _ .vmem, ⟨17, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_c_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_7 : Ref sig .tc := ⟨.hbm, 49, rfl⟩
abbrev main_v27 : Ref sig .tc := ⟨.hbm, 50, rfl⟩
abbrev main_v28 : Ref sig .tc := ⟨.hbm, 51, rfl⟩
abbrev main_c_8 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_c_11 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_13 : Ref sig .tc := ⟨.hbm, 81, rfl⟩
abbrev main_v53 : Ref sig .tc := ⟨.hbm, 82, rfl⟩
abbrev main_v54 : Ref sig .tc := ⟨.hbm, 83, rfl⟩
abbrev main_c_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_15 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v38) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x1, .f32⟩
  | .hbm, ⟨82, _⟩ => ⟨S100000x128, .f32⟩
  | .hbm, ⟨83, _⟩ => ⟨S100000x128, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S100000x1, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S1x128, .f32⟩
  | .hbm, ⟨102, _⟩ => ⟨S100000x128, .f32⟩
  | .hbm, ⟨103, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call3_cst : Ref sig .tc := ⟨.hbm, 78, rfl⟩
abbrev main_call3_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_9 : Ref sig .tc := ⟨.hbm, 84, rfl⟩
abbrev main_v56 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its RESULT named: every weakly fair execution of the program terminates without a
  fault, the result array holds what the last region's write-backs leave in it (the fold of buffer contents through
  the host stretches and the three regions, read at the result's buffer), and the nine argument arrays end as launched.
  This is the frame's run read once more at one further buffer: the final thread state holds every unscoped buffer at
  the last boundary's contents, and the result is one of them.
-/
import proofs.«159424_j21105469293089_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents. -/
theorem run : θ_run defs (onTc (τ := τ) (main (F := F))) ⟨m, fun _ => 0, ρ⟩ (fun r => ∀ c : Dev nD,
      r.2.mem ((c.tc : Thread nD τ).loc main_v65) = W10 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v65 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Result

end
-- ==== Proof.AggDefs.lean ====
/-
  Sparse aggregation of a graph convolution: the shapes, the dimension numbers of the indexed operations, and the two
  arrangements of the symmetric normalisation as terms over the host's scatter-add and gather.

  For node features `h : [N, D]`, edges `e ↦ (src e, dst e)` and two per-node weights `ns, nd : [N]`:
    • per edge, before the sum:   row n ↦ ∑_{e : dst e = n} h[src e] · (ns[src e] · nd[dst e])     (`aggEdge`)
    • per node, around the sum:   row n ↦ (∑_{e : dst e = n} (h · ns)[src e]) · nd[n]              (`aggNode`)
  An edge index is read signed; the gathers first count a negative index from the end (`wrap`) and clamp, the scatter
  drops an edge whose index is outside `[0, N)`. The weights are reciprocal square roots of degrees clipped below at
  one (`norm`).
-/
import Idealize.ShloMosaic.PureOps.Ideal
import Idealize.ShloMosaic.PureOps.Ideal.Laws
import Idealize.ShloMosaic.PureOps.Contract
import Idealize.ShloMosaic.Lib.ValueIdx
import Idealize.ShloMosaic.Lib.Pipeline.Value

noncomputable section

namespace Cert.GraphAgg

open Idealize.ShloMosaic Idealize.ShloMosaic.ValueIdx

/-! ## Shapes: N = 100000 nodes, D = 128 features, E = 1600000 edges -/

abbrev S0 : Shape := ⟨0, ![]⟩
abbrev SN : Shape := ⟨1, ![100000]⟩
abbrev SN1 : Shape := ⟨2, ![100000, 1]⟩
abbrev SND : Shape := ⟨2, ![100000, 128]⟩
abbrev SE : Shape := ⟨1, ![1600000]⟩
abbrev SE1 : Shape := ⟨2, ![1600000, 1]⟩
abbrev SED : Shape := ⟨2, ![1600000, 128]⟩

/-! ## The dimension numbers of the four indexed operations -/

/-- Scatter rows of an `[E, D]` update into an `[N, D]` operand, one row index per edge. -/
abbrev rowScatter (wf : ScatterDims.WF SND SE1 SED [1] [0] [0] 1) : ScatterDims SND SE1 SED where
  updateWindowDims := [1]
  insertedWindowDims := [0]
  scatterDimsToOperandDims := [0]
  indexVectorDim := 1
  wf := wf

/-- Scatter an `[E]` update into an `[N]` operand, one index per edge. -/
abbrev vecScatter (wf : ScatterDims.WF SN SE1 SE [] [0] [0] 1) : ScatterDims SN SE1 SE where
  updateWindowDims := []
  insertedWindowDims := [0]
  scatterDimsToOperandDims := [0]
  indexVectorDim := 1
  wf := wf

/-- Gather rows of an `[N, D]` operand, one row index per edge. -/
abbrev rowGather (wf : GatherDims.WF SND SE1 SED [1] [0] [] [0] [] 1 ![1, 128]) : GatherDims SND SE1 SED where
  offsetDims := [1]
  collapsedSliceDims := [0]
  operandBatchingDims := []
  startIndicesBatchingDims := []
  startIndexMap := [0]
  indexVectorDim := 1
  sliceSizes := ![1, 128]
  wf := wf

/-- Gather entries of an `[N]` operand, one index per edge. -/
abbrev vecGather (wf : GatherDims.WF SN SE1 SE [] [0] [] [0] [] 1 ![1]) : GatherDims SN SE1 SE where
  offsetDims := []
  collapsedSliceDims := [0]
  operandBatchingDims := []
  startIndicesBatchingDims := []
  startIndexMap := [0]
  indexVectorDim := 1
  sliceSizes := ![1]
  wf := wf

variable (wfS : ScatterDims.WF SND SE1 SED [1] [0] [0] 1) (wfs : ScatterDims.WF SN SE1 SE [] [0] [0] 1)
  (wfG : GatherDims.WF SND SE1 SED [1] [0] [] [0] [] 1 ![1, 128]) (wfg : GatherDims.WF SN SE1 SE [] [0] [] [0] [] 1 ![1])
  (hE : S0.BroadcastsInDim SE (![] : Fin 0 → Fin 1)) (hN : S0.BroadcastsInDim SN (![] : Fin 0 → Fin 1))
  (hND : S0.BroadcastsInDim SND (![] : Fin 0 → Fin 2))
  (hE1 : SE.BroadcastsInDim SE1 (![0] : Fin 1 → Fin 2)) (hED : SE1.BroadcastsInDim SED (![0, 1] : Fin 2 → Fin 2))
  (hN1 : SN.BroadcastsInDim SN1 (![0] : Fin 1 → Fin 2)) (hN1D : SN1.BroadcastsInDim SND (![0, 1] : Fin 2 → Fin 2))

/-- An index counted from the end when negative: `i < 0 ? i + N : i`. -/
def wrap (idx : IVec SE 32) : IVec SE 32 :=
  select (cmpi .slt idx (broadcastInDim SE ![] hE (constantI S0 32 0#32)))
    (addi idx (broadcastInDim SE ![] hE (constantI S0 32 100000#32))) idx

/-- The `[N, D]` array of zeros the sums start from. -/
def zeros : FVec Ideal SND .f32 := broadcastInDim SND ![] hND (constant (F := Ideal) S0 .f32 0x00000000#32)

/-- Normalisation per edge, before the sum. -/
def aggEdge (h : FVec Ideal SND .f32) (src dst : IVec SE 32) (ns nd : FVec Ideal SN .f32) : FVec Ideal SND .f32 :=
  Host.scatterAdd (rowScatter wfS) (zeros hND) (broadcastInDim SE1 ![0] hE1 dst)
    (mulf (Host.gather (rowGather wfG) h (broadcastInDim SE1 ![0] hE1 (wrap hE src)))
      (broadcastInDim SED ![0, 1] hED (broadcastInDim SE1 ![0] hE1
        (mulf (Host.gather (vecGather wfg) ns (broadcastInDim SE1 ![0] hE1 (wrap hE src)))
          (Host.gather (vecGather wfg) nd (broadcastInDim SE1 ![0] hE1 (wrap hE dst)))))))

/-- Normalisation per node, around the sum. -/
def aggNode (h : FVec Ideal SND .f32) (src dst : IVec SE 32) (ns nd : FVec Ideal SN .f32) : FVec Ideal SND .f32 :=
  mulf (Host.scatterAdd (rowScatter wfS) (zeros hND) (broadcastInDim SE1 ![0] hE1 dst)
      (Host.gather (rowGather wfG) (mulf h (broadcastInDim SND ![0, 1] hN1D (broadcastInDim SN1 ![0] hN1 ns)))
        (broadcastInDim SE1 ![0] hE1 (wrap hE src))))
    (broadcastInDim SND ![0, 1] hN1D (broadcastInDim SN1 ![0] hN1 nd))

/-- The reciprocal square root of the degree clipped below at one: the degree of node `n` counts the edges whose
    index is `n`. -/
def norm (idx : IVec SE 32) : FVec Ideal SN .f32 :=
  Host.rsqrt (maximumf (broadcastInDim SN ![] hN (constant (F := Ideal) S0 .f32 0x3F800000#32))
    (Host.scatterAdd (vecScatter wfs) (broadcastInDim SN ![] hN (constant (F := Ideal) S0 .f32 0x00000000#32))
      (broadcastInDim SE1 ![0] hE1 idx) (broadcastInDim SE ![] hE (constant (F := Ideal) S0 .f32 0x3F800000#32))))

end Cert.GraphAgg

end
-- ==== Proof.HostReads.lean ====
/-
  What each stretch of host operations of the kernel's program computes, as a function of the buffer contents the
  stretch starts from: the two degree counts (a scatter-add of ones over the edges, by source and by destination),
  their clipping below at one and reciprocal square roots, the per-edge weight (the product of the source's and the
  destination's weights, each gathered along the edges), and, before each region, the aggregation of the previous
  layer's features: rows gathered along the edges' sources, scaled by the per-edge weight, summed into the edges'
  destinations.
-/
import proofs.«159424_j21105469293089_2_alg».proof.Proof.Gen.KernelIdeal.Launch
import proofs.«159424_j21105469293089_2_alg».proof.Proof.AggDefs
import Idealize.ShloMosaic.Lib.StableHlo.Run

set_option maxRecDepth 16384

noncomputable section

namespace Cert.KernelIdeal.Reads

open Idealize.ShloMosaic Idealize.ShloMosaic.TcCoe Idealize.ShloMosaic.StableHlo
open Idealize.SL Idealize.SL.Sem
open Cert.KernelIdeal Cert.KernelIdeal.Gen Cert.GraphAgg

variable (V : Valuation τ sig (Elt Ideal))

/-- The degree count: ones summed into the nodes the edges' indices name. -/
def deg (idx : IVec SE 32) : FVec Ideal SN .f32 :=
  Host.scatterAdd (vecScatter scatter_S100000_S1600000x1_S1600000_n_0_0_1_wf) (broadcastInDim SN ![] bcast_S_S100000 (constant (F := Ideal) S0 .f32 0x00000000#32))
    (broadcastInDim SE1 ![0] bcast_S1600000_S1600000x1_0 idx) (broadcastInDim SE ![] bcast_S_S1600000 (constant (F := Ideal) S0 .f32 0x3F800000#32))

theorem ops0_v3 : @Eq (FVec Ideal SN .f32) (after (hostOps0 (F := Ideal)) V (Proc.devRef .tc main_v3)) (deg (V (Proc.devRef .tc main_arg1) : IVec SE 32)) := by
  dsimp only [hostOps0]; after_results <;> rfl
theorem ops0_v6 : @Eq (FVec Ideal SN .f32) (after (hostOps0 (F := Ideal)) V (Proc.devRef .tc main_v6)) (deg (V (Proc.devRef .tc main_arg2) : IVec SE 32)) := by
  dsimp only [hostOps0]; after_results <;> rfl
theorem ops0_cst2 : @Eq (FVec Ideal S0 .f32) (after (hostOps0 (F := Ideal)) V (Proc.devRef .tc main_cst_2)) (constant (F := Ideal) S0 .f32 0x3F800000#32) := by
  dsimp only [hostOps0]; after_results <;> rfl
theorem ops0_1_v7 : @Eq (FVec Ideal SN .f32) (after (hostOps0_1 (F := Ideal)) V (Proc.devRef .tc main_v7)) (maximumf (broadcastInDim SN ![] bcast_S_S100000 (V (Proc.devRef .tc main_cst_2) : FVec Ideal S0 .f32)) (V (Proc.devRef .tc main_v3) : FVec Ideal SN .f32)) := by
  dsimp only [hostOps0_1]; after_results <;> rfl
theorem ops0_2_v8 : @Eq (FVec Ideal SN .f32) (after (hostOps0_2 (F := Ideal)) V (Proc.devRef .tc main_v8)) (Host.rsqrt (F := Ideal) (V (Proc.devRef .tc main_v7) : FVec Ideal SN .f32)) := by
  dsimp only [hostOps0_2]; after_results <;> rfl
theorem ops0_2_cst3 : @Eq (FVec Ideal S0 .f32) (after (hostOps0_2 (F := Ideal)) V (Proc.devRef .tc main_cst_3)) (constant (F := Ideal) S0 .f32 0x3F800000#32) := by
  dsimp only [hostOps0_2]; after_results <;> rfl
theorem ops0_3_v9 : @Eq (FVec Ideal SN .f32) (after (hostOps0_3 (F := Ideal)) V (Proc.devRef .tc main_v9)) (maximumf (broadcastInDim SN ![] bcast_S_S100000 (V (Proc.devRef .tc main_cst_3) : FVec Ideal S0 .f32)) (V (Proc.devRef .tc main_v6) : FVec Ideal SN .f32)) := by
  dsimp only [hostOps0_3]; after_results <;> rfl

/-- The per-edge weight from the two per-node weights. -/
def edgeWeight (src dst : IVec SE 32) (ns nd : FVec Ideal SN .f32) : FVec Ideal SE1 .f32 :=
  broadcastInDim SE1 ![0] bcast_S1600000_S1600000x1_0
    (mulf (Host.gather (vecGather gather_S100000_S1600000x1_S1600000_n_0_n_n_0_1_1_wf) ns (broadcastInDim SE1 ![0] bcast_S1600000_S1600000x1_0 (wrap bcast_S_S1600000 src)))
      (Host.gather (vecGather gather_S100000_S1600000x1_S1600000_n_0_n_n_0_1_1_wf) nd (broadcastInDim SE1 ![0] bcast_S1600000_S1600000x1_0 (wrap bcast_S_S1600000 dst))))

/-- One aggregation with the per-edge weight given as an array. -/
def aggWith (h : FVec Ideal SND .f32) (src dst : IVec SE 32) (w : FVec Ideal SE1 .f32) : FVec Ideal SND .f32 :=
  Host.scatterAdd (rowScatter scatter_S100000x128_S1600000x1_S1600000x128_1_0_0_1_wf) (zeros bcast_S_S100000x128) (broadcastInDim SE1 ![0] bcast_S1600000_S1600000x1_0 dst)
    (mulf (Host.gather (rowGather gather_S100000x128_S1600000x1_S1600000x128_1_0_n_n_0_1_1128_wf) h (broadcastInDim SE1 ![0] bcast_S1600000_S1600000x1_0 (wrap bcast_S_S1600000 src)))
      (broadcastInDim SED ![0, 1] bcast_S1600000x1_S1600000x128_0_1 w))

/-- With the per-edge weight built from the per-node weights this is the aggregation normalised per edge. -/
theorem aggWith_edgeWeight (h : FVec Ideal SND .f32) (src dst : IVec SE 32) (ns nd : FVec Ideal SN .f32) :
    aggWith h src dst (edgeWeight src dst ns nd)
      = aggEdge scatter_S100000x128_S1600000x1_S1600000x128_1_0_0_1_wf gather_S100000x128_S1600000x1_S1600000x128_1_0_n_n_0_1_1128_wf gather_S100000_S1600000x1_S1600000_n_0_n_n_0_1_1_wf bcast_S_S1600000 bcast_S_S100000x128 bcast_S1600000_S1600000x1_0 bcast_S1600000x1_S1600000x128_0_1 h src dst ns nd := rfl

set_option maxHeartbeats 4000000 in
theorem ops0_4_v26 : @Eq (FVec Ideal SE1 .f32) (after (hostOps0_4 (F := Ideal)) V (Proc.devRef .tc main_v26)) (edgeWeight (V (Proc.devRef .tc main_arg1) : IVec SE 32) (V (Proc.devRef .tc main_arg2) : IVec SE 32) (V (Proc.devRef .tc main_v8) : FVec Ideal SN .f32) (Host.rsqrt (F := Ideal) (V (Proc.devRef .tc main_v9) : FVec Ideal SN .f32) : FVec Ideal SN .f32)) := by
  dsimp only [hostOps0_4]; after_results_simp <;> rfl

set_option maxHeartbeats 4000000 in
theorem ops0_4_v38 : @Eq (FVec Ideal SND .f32) (after (hostOps0_4 (F := Ideal)) V (Proc.devRef .tc main_v38)) (aggWith (V (Proc.devRef .tc main_arg0) : FVec Ideal SND .f32) (V (Proc.devRef .tc main_arg1) : IVec SE 32) (V (Proc.devRef .tc main_arg2) : IVec SE 32)
        (edgeWeight (V (Proc.devRef .tc main_arg1) : IVec SE 32) (V (Proc.devRef .tc main_arg2) : IVec SE 32) (V (Proc.devRef .tc main_v8) : FVec Ideal SN .f32) (Host.rsqrt (F := Ideal) (V (Proc.devRef .tc main_v9) : FVec Ideal SN .f32) : FVec Ideal SN .f32))) := by
  dsimp only [hostOps0_4]; after_results_simp <;> rfl

set_option maxHeartbeats 4000000 in
theorem ops1_v51 : @Eq (FVec Ideal SND .f32) (after (hostOps1 (F := Ideal)) V (Proc.devRef .tc main_v51)) (aggWith (V (Proc.devRef .tc main_v39) : FVec Ideal SND .f32) (V (Proc.devRef .tc main_arg1) : IVec SE 32) (V (Proc.devRef .tc main_arg2) : IVec SE 32) (V (Proc.devRef .tc main_v26) : FVec Ideal SE1 .f32)) := by
  dsimp only [hostOps1]; after_results_simp <;> rfl

set_option maxHeartbeats 4000000 in
theorem ops2_v64 : @Eq (FVec Ideal SND .f32) (after (hostOps2 (F := Ideal)) V (Proc.devRef .tc main_v64)) (aggWith (V (Proc.devRef .tc main_v52) : FVec Ideal SND .f32) (V (Proc.devRef .tc main_arg1) : IVec SE 32) (V (Proc.devRef .tc main_arg2) : IVec SE 32) (V (Proc.devRef .tc main_v26) : FVec Ideal SE1 .f32)) := by
  dsimp only [hostOps2]; after_results_simp <;> rfl

end Cert.KernelIdeal.Reads

end
-- ==== Proof.HostKeeps.lean ====
/-
  A host operation rewrites only its own result buffer and leaves every other buffer as it found it, so a stretch of
  host operations leaves a buffer as it found it as soon as the buffer is the result of none of them. Here that is read
  off for the stretches between the kernel regions and the buffers named below: the program's arguments, which no
  operation has as its result, and three intermediate arrays, each computed once, before the stretch in question.
  The contents before the stretch are arbitrary.
-/
import proofs.«159424_j21105469293089_2_alg».proof.Proof.Gen.KernelIdeal.Launch
import Idealize.ShloMosaic.Lib.StableHlo.Run

set_option maxRecDepth 16384

noncomputable section

namespace Cert.KernelIdeal.Keeps

open Idealize.ShloMosaic Idealize.ShloMosaic.TcCoe Idealize.SL.Sem Cert.KernelIdeal Cert.KernelIdeal.Gen

variable {F : FTy → Type} [FloatOps F]

/-- The buffer of the goal is the result of no operation of the stretch: the stretch is unfolded to its list of
    operations, each operation's set of written buffers is the singleton of its result, and the buffer differs from
    each result because the two references differ. -/
local macro "keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem keep_hostOps1_main_arg0 (V : Valuation τ sig (Elt F)) :
    StableHlo.after (hostOps1 (F := F)) V (Proc.devRef .tc main_arg0) = V (Proc.devRef .tc main_arg0) := by keeps hostOps1
theorem keep_hostOps1_main_arg1 (V : Valuation τ sig (Elt F)) :
    StableHlo.after (hostOps1 (F := F)) V (Proc.devRef .tc main_arg1) = V (Proc.devRef .tc main_arg1) := by keeps hostOps1
theorem keep_hostOps1_main_arg2 (V : Valuation τ sig (Elt F)) :
    StableHlo.after (hostOps1 (F := F)) V (Proc.devRef .tc main_arg2) = V (Proc.devRef .tc main_arg2) := by keeps hostOps1
theorem keep_hostOps1_main_arg3 (V : Valuation τ sig (Elt F)) :
    StableHlo.after (hostOps1 (F := F)) V (Proc.devRef .tc main_arg3) = V (Proc.devRef .tc main_arg3) := by keeps hostOps1
theorem keep_hostOps1_main_arg4 (V : Valuation τ sig (Elt F)) :
    StableHlo.after (hostOps1 (F := F)) V (Proc.devRef .tc main_arg4) = V (Proc.devRef .tc main_arg4) := by keeps hostOps1
theorem keep_hostOps1_main_arg5 (V : Valuation τ sig (Elt F)) :
    StableHlo.after (hostOps1 (F := F)) V (Proc.devRef .tc main_arg5) = V (Proc.devRef .tc main_arg5) := by keeps hostOps1
theorem keep_hostOps1_main_arg6 (V : Valuation τ sig (Elt F)) :
    StableHlo.after (hostOps1 (F := F)) V (Proc.devRef .tc main_arg6) = V (Proc.devRef .tc main_arg6) := by keeps hostOps1
theorem keep_hostOps1_main_arg7 (V : Valuation τ sig (Elt F)) :
    StableHlo.after (hostOps1 (F := F)) V (Proc.devRef .tc main_arg7) = V (Proc.devRef .tc main_arg7) := by keeps hostOps1
theorem keep_hostOps1_main_arg8 (V : Valuation τ sig (Elt F)) :
    StableHlo.after (hostOps1 (F := F)) V (Proc.devRef .tc main_arg8) = V (Proc.devRef .tc main_arg8) := by keeps hostOps1
theorem keep_hostOps1_main_v26 (V : Valuation τ sig (Elt F)) :
    StableHlo.after (hostOps1 (F := F)) V (Proc.devRef .tc main_v26) = V (Proc.devRef .tc main_v26) := by keeps hostOps1
theorem keep_hostOps2_main_arg0 (V : Valuation τ sig (Elt F)) :
    StableHlo.after (hostOps2 (F := F)) V (Proc.devRef .tc main_arg0) = V (Proc.devRef .tc main_arg0) := by keeps hostOps2
theorem keep_hostOps2_main_arg1 (V : Valuation τ sig (Elt F)) :
    StableHlo.after (hostOps2 (F := F)) V (Proc.devRef .tc main_arg1) = V (Proc.devRef .tc main_arg1) := by keeps hostOps2
theorem keep_hostOps2_main_arg2 (V : Valuation τ sig (Elt F)) :
    StableHlo.after (hostOps2 (F := F)) V (Proc.devRef .tc main_arg2) = V (Proc.devRef .tc main_arg2) := by keeps hostOps2
theorem keep_hostOps2_main_arg3 (V : Valuation τ sig (Elt F)) :
    StableHlo.after (hostOps2 (F := F)) V (Proc.devRef .tc main_arg3) = V (Proc.devRef .tc main_arg3) := by keeps hostOps2
theorem keep_hostOps2_main_arg4 (V : Valuation τ sig (Elt F)) :
    StableHlo.after (hostOps2 (F := F)) V (Proc.devRef .tc main_arg4) = V (Proc.devRef .tc main_arg4) := by keeps hostOps2
theorem keep_hostOps2_main_arg5 (V : Valuation τ sig (Elt F)) :
    StableHlo.after (hostOps2 (F := F)) V (Proc.devRef .tc main_arg5) = V (Proc.devRef .tc main_arg5) := by keeps hostOps2
theorem keep_hostOps2_main_arg6 (V : Valuation τ sig (Elt F)) :
    StableHlo.after (hostOps2 (F := F)) V (Proc.devRef .tc main_arg6) = V (Proc.devRef .tc main_arg6) := by keeps hostOps2
theorem keep_hostOps2_main_arg7 (V : Valuation τ sig (Elt F)) :
    StableHlo.after (hostOps2 (F := F)) V (Proc.devRef .tc main_arg7) = V (Proc.devRef .tc main_arg7) := by keeps hostOps2
theorem keep_hostOps2_main_arg8 (V : Valuation τ sig (Elt F)) :
    StableHlo.after (hostOps2 (F := F)) V (Proc.devRef .tc main_arg8) = V (Proc.devRef .tc main_arg8) := by keeps hostOps2
theorem keep_hostOps0_4_main_arg0 (V : Valuation τ sig (Elt F)) :
    StableHlo.after (hostOps0_4 (F := F)) V (Proc.devRef .tc main_arg0) = V (Proc.devRef .tc main_arg0) := by keeps hostOps0_4
theorem keep_hostOps0_4_main_arg1 (V : Valuation τ sig (Elt F)) :
    StableHlo.after (hostOps0_4 (F := F)) V (Proc.devRef .tc main_arg1) = V (Proc.devRef .tc main_arg1) := by keeps hostOps0_4
theorem keep_hostOps0_4_main_arg2 (V : Valuation τ sig (Elt F)) :
    StableHlo.after (hostOps0_4 (F := F)) V (Proc.devRef .tc main_arg2) = V (Proc.devRef .tc main_arg2) := by keeps hostOps0_4
theorem keep_hostOps0_1_main_v6 (V : Valuation τ sig (Elt F)) :
    StableHlo.after (hostOps0_1 (F := F)) V (Proc.devRef .tc main_v6) = V (Proc.devRef .tc main_v6) := by keeps hostOps0_1
theorem keep_hostOps0_2_main_v6 (V : Valuation τ sig (Elt F)) :
    StableHlo.after (hostOps0_2 (F := F)) V (Proc.devRef .tc main_v6) = V (Proc.devRef .tc main_v6) := by keeps hostOps0_2
theorem keep_hostOps0_3_main_v8 (V : Valuation τ sig (Elt F)) :
    StableHlo.after (hostOps0_3 (F := F)) V (Proc.devRef .tc main_v8) = V (Proc.devRef .tc main_v8) := by keeps hostOps0_3

end Cert.KernelIdeal.Keeps

end
-- ==== Proof.DenseSpec.lean ====
/-
  One dense layer of the network, index by index: entry (n, d) of `A · W + b` is the sum over the 128 input features
  `k` of `A[n, k] · W[k, d]`, plus `b[d]`; the hidden layers clip it below at zero.
-/
import Idealize.ShloMosaic.PureOps.Ideal
import Idealize.ShloMosaic.Lib.ValueIdx

noncomputable section

namespace Cert.Dense

open Idealize.ShloMosaic Idealize.ShloMosaic.ValueIdx

abbrev SND : Shape := ⟨2, ![100000, 128]⟩
abbrev SDD : Shape := ⟨2, ![128, 128]⟩
abbrev SD : Shape := ⟨1, ![128]⟩

/-- Entry (n, d) of `A · W + b` on the extended reals. -/
def affine (A : SND.Idx → EReal) (W : SDD.Idx → EReal) (b : SD.Idx → EReal) : SND.Idx → EReal :=
  fun i => (∑ k : Fin 128, A (ix2 (i 0) k) * W (ix2 k (i 1))) + b (ix1 (i 1))

/-- The same clipped below at zero. -/
def affineRelu (A : SND.Idx → EReal) (W : SDD.Idx → EReal) (b : SD.Idx → EReal) : SND.Idx → EReal :=
  fun i => max (affine A W b i) 0

end Cert.Dense

end
-- ==== Proof.Region0.lean ====
/-
  Region 0 of the kernel, from blocks to the whole array. The grid has ten points; point `t` stages rows
  [10000·t, 10000·(t+1)) of the [100000, 128] input array, the whole weight matrix and the whole bias vector, and writes
  back rows [10000·t, 10000·(t+1)) of the output. The body's value at row `p`, column `q` of its block depends only on
  row `p` of the input block, so block `t` of the output is block `t` of ONE whole-array function — the dense layer
  `A · W + b` clipped below at zero of the arrays as the region finds them — and the ten blocks tile the array:
  row `r` is in the block of point `r / 10000`.
-/
import proofs.«159424_j21105469293089_2_alg».proof.Proof.Gen.KernelIdeal.Frame
import proofs.«159424_j21105469293089_2_alg».proof.Proof.DenseSpec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The layer as one function of the arrays the region is entered with. -/
def G (c : Dev nD) : S100000x128.Idx → EReal :=
  Cert.Dense.affineRelu (V c main_v38) (V c main_arg3) (V c main_arg4)

/-- The printed index maps over the ten grid points: the input and the output move down one block of rows per point,
    the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the layer. -/
theorem flushed_eq
    (hpay : ∀ (x0 : Vec Ideal S10000x128 .f32) (x1 : Vec Ideal S128x128 .f32) (x2 : Vec Ideal S128 .f32) (p : Fin 10000) (q : Fin 128),
      k0_pay1 (F := Ideal) x0 x1 x2 (ix2 p q) = max ((∑ k : Fin 128, x0 (ix2 p k) * x1 (ix2 k q)) + x2 (ix1 q)) 0)
    (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero hz2]
  simp only [View.ld_unit_zero (S := S10000x128) hz2, View.ld_unit_zero (S := S128x128) hz2, View.ld_unit_zero (S := S128) hz1]
  obtain ⟨e00, e01, e10, e11, e20, e30, e31⟩ := idx_facts t
  funext j
  obtain ⟨p, q, rfl⟩ : ∃ (p : Fin 10000) (q : Fin 128), j = ix2 p q := ⟨j 0, j 1, eq_ix2 j⟩
  refine (hpay (iblk0 V c 0 t) (iblk0 V c 1 t) (iblk0 V c 2 t) p q).trans ?_
  have ht : t.val < 10 := t.isLt
  have hr : t.val * 10000 + p.val < 100000 := by have := p.isLt; omega
  have e3 : ((cfg0.win 3).blk t).view.emb (ix2 p q) = (ix2 (⟨t.val * 10000 + p.val, hr⟩ : Fin 100000) q : S100000x128.Idx) := by
    funext a; apply Fin.ext
    match a with
    | ⟨0, _⟩ => show win0_3.index t (0 : Fin 2) * 10000 + 1 * p.val = t.val * 10000 + p.val; omega
    | ⟨1, _⟩ => show win0_3.index t (1 : Fin 2) * 128 + 1 * q.val = q.val; omega
  have h0 : ∀ k : Fin 128, iblk0 V c 0 t (ix2 p k)
      = (V c main_v38 : S100000x128.Idx → EReal) (ix2 (⟨t.val * 10000 + p.val, hr⟩ : Fin 100000) k) := fun k => by
    show (V c main_v38 : S100000x128.Idx → EReal) (((cfg0.win 0).blk t).view.emb (ix2 p k)) = _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  have h1 : ∀ k : Fin 128, iblk0 V c 1 t (ix2 k q) = (V c main_arg3 : S128x128.Idx → EReal) (ix2 k q) := fun k => by
    show (V c main_arg3 : S128x128.Idx → EReal) (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  have h2 : iblk0 V c 2 t (ix1 q) = (V c main_arg4 : S128.Idx → EReal) (ix1 q) := by
    show (V c main_arg4 : S128.Idx → EReal) (((cfg0.win 2).blk t).view.emb (ix1 q)) = _
    refine congrArg _ (funext fun a => Fin.ext ?_)
    match a with
    | ⟨0, _⟩ => show win0_2.index t (0 : Fin 1) * 128 + 1 * q.val = q.val; omega
  show _ = G V c (((cfg0.win 3).blk t).view.emb (ix2 p q))
  rw [e3]
  simp only [h0, h1, h2]
  rfl

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v39).slice (win0_3.rect t)).set ↔ _
  rw [View.set_slice_whole, Rect.mem_set_unit]
  exact Iff.rfl

/-- Every row of the output is in the block of the point `row / 10000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 10000 < cfg0.N := by show (i 0).val / 10000 < 10; omega
  refine ⟨⟨(i 0).val / 10000, hlt⟩, flush0_3 _, ?_⟩
  rw [mem_blk]
  obtain ⟨-, -, -, -, -, e30, e31⟩ := idx_facts ⟨(i 0).val / 10000, hlt⟩
  intro a
  match a with
  | ⟨0, _⟩ =>
    show win0_3.index ⟨(i 0).val / 10000, hlt⟩ (0 : Fin 2) * 10000 ≤ (i 0).val ∧ (i 0).val < win0_3.index ⟨(i 0).val / 10000, hlt⟩ (0 : Fin 2) * 10000 + 10000
    rw [e30]; show (i 0).val / 10000 * 10000 ≤ (i 0).val ∧ (i 0).val < (i 0).val / 10000 * 10000 + 10000; omega
  | ⟨1, _⟩ =>
    show win0_3.index ⟨(i 0).val / 10000, hlt⟩ (1 : Fin 2) * 128 ≤ (i 1).val ∧ (i 1).val < win0_3.index ⟨(i 0).val / 10000, hlt⟩ (1 : Fin 2) * 128 + 128
    rw [e31]; omega

/-- THE OUTPUT ARRAY after the region: the layer of the arrays the region was entered with. -/
theorem final
    (hpay : ∀ (x0 : Vec Ideal S10000x128 .f32) (x1 : Vec Ideal S128x128 .f32) (x2 : Vec Ideal S128 .f32) (p : Fin 10000) (q : Fin 128),
      k0_pay1 (F := Ideal) x0 x1 x2 (ix2 p q) = max ((∑ k : Fin 128, x0 (ix2 p k) * x1 (ix2 k q)) + x2 (ix1 q)) 0)
    (c : Dev nD) : (dat0 (F := Ideal) V c).arrAt 3 cfg0.N = G V c :=
  (dat0 (F := Ideal) V c).arrAt_eq_of_cover 3 (G V c) (fun t _ => flushed_eq V hpay c t) cover

end Cert.KernelIdeal.Region0

end
-- ==== Proof.Region1.lean ====
/-
  Region 1 of the kernel, from blocks to the whole array. The grid has ten points; point `t` stages rows
  [10000·t, 10000·(t+1)) of the [100000, 128] input array, the whole weight matrix and the whole bias vector, and writes
  back rows [10000·t, 10000·(t+1)) of the output. The body's value at row `p`, column `q` of its block depends only on
  row `p` of the input block, so block `t` of the output is block `t` of ONE whole-array function — the dense layer
  `A · W + b` clipped below at zero of the arrays as the region finds them — and the ten blocks tile the array:
  row `r` is in the block of point `r / 10000`.
-/
import proofs.«159424_j21105469293089_2_alg».proof.Proof.Gen.KernelIdeal.Frame
import proofs.«159424_j21105469293089_2_alg».proof.Proof.DenseSpec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The layer as one function of the arrays the region is entered with. -/
def G (c : Dev nD) : S100000x128.Idx → EReal :=
  Cert.Dense.affineRelu (V c main_v51) (V c main_arg5) (V c main_arg6)

/-- The printed index maps over the ten grid points: the input and the output move down one block of rows per point,
    the weights and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point `t` writes back is block `t` of the layer. -/
theorem flushed_eq
    (hpay : ∀ (x0 : Vec Ideal S10000x128 .f32) (x1 : Vec Ideal S128x128 .f32) (x2 : Vec Ideal S128 .f32) (p : Fin 10000) (q : Fin 128),
      k1_pay1 (F := Ideal) x0 x1 x2 (ix2 p q) = max ((∑ k : Fin 128, x0 (ix2 p k) * x1 (ix2 k q)) + x2 (ix1 q)) 0)
    (c : Dev nD) (t : Fin cfg1.N) :
    (dat1 (F := Ideal) V c).flushed 3 t = ((cfg1.win 3).blk t).view.read (Elt Ideal) (G V c) := by
  show (cfg1.win 3).cut (grid1.coords t) ((dat1 (F := Ideal) V c).after 3 t) = _
  rw [after1_3]
  unfold out1_3
  rw [View.canon_unit_zero hz2]
  simp only [View.ld_unit_zero (S := S10000x128) hz2, View.ld_unit_zero (S := S128x128) hz2, View.ld_unit_zero (S := S128) hz1]
  obtain ⟨e00, e01, e10, e11, e20, e30, e31⟩ := idx_facts t
  funext j
  obtain ⟨p, q, rfl⟩ : ∃ (p : Fin 10000) (q : Fin 128), j = ix2 p q := ⟨j 0, j 1, eq_ix2 j⟩
  refine (hpay (iblk1 V c 0 t) (iblk1 V c 1 t) (iblk1 V c 2 t) p q).trans ?_
  have ht : t.val < 10 := t.isLt
  have hr : t.val * 10000 + p.val < 100000 := by have := p.isLt; omega
  have e3 : ((cfg1.win 3).blk t).view.emb (ix2 p q) = (ix2 (⟨t.val * 10000 + p.val, hr⟩ : Fin 100000) q : S100000x128.Idx) := by
    funext a; apply Fin.ext
    match a with
    | ⟨0, _⟩ => show win1_3.index t (0 : Fin 2) * 10000 + 1 * p.val = t.val * 10000 + p.val; omega
    | ⟨1, _⟩ => show win1_3.index t (1 : Fin 2) * 128 + 1 * q.val = q.val; omega
  have h0 : ∀ k : Fin 128, iblk1 V c 0 t (ix2 p k)
      = (V c main_v51 : S100000x128.Idx → EReal) (ix2 (⟨t.val * 10000 + p.val, hr⟩ : Fin 100000) k) := fun k => by
    show (V c main_v51 : S100000x128.Idx → EReal) (((cfg1.win 0).blk t).view.emb (ix2 p k)) = _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 128 + 1 * k.val = k.val; omega
  have h1 : ∀ k : Fin 128, iblk1 V c 1 t (ix2 k q) = (V c main_arg5 : S128x128.Idx → EReal) (ix2 k q) := fun k => by
    show (V c main_arg5 : S128x128.Idx → EReal) (((cfg1.win 1).blk t).view.emb (ix2 k q)) = _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  have h2 : iblk1 V c 2 t (ix1 q) = (V c main_arg6 : S128.Idx → EReal) (ix1 q) := by
    show (V c main_arg6 : S128.Idx → EReal) (((cfg1.win 2).blk t).view.emb (ix1 q)) = _
    refine congrArg _ (funext fun a => Fin.ext ?_)
    match a with
    | ⟨0, _⟩ => show win1_2.index t (0 : Fin 1) * 128 + 1 * q.val = q.val; omega
  show _ = G V c (((cfg1.win 3).blk t).view.emb (ix2 p q))
  rw [e3]
  simp only [h0, h1, h2]
  rfl

/-- An index of the output array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v52).slice (win1_3.rect t)).set ↔ _
  rw [View.set_slice_whole, Rect.mem_set_unit]
  exact Iff.rfl

/-- Every row of the output is in the block of the point `row / 10000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hlt : (i 0).val / 10000 < cfg1.N := by show (i 0).val / 10000 < 10; omega
  refine ⟨⟨(i 0).val / 10000, hlt⟩, flush1_3 _, ?_⟩
  rw [mem_blk]
  obtain ⟨-, -, -, -, -, e30, e31⟩ := idx_facts ⟨(i 0).val / 10000, hlt⟩
  intro a
  match a with
  | ⟨0, _⟩ =>
    show win1_3.index ⟨(i 0).val / 10000, hlt⟩ (0 : Fin 2) * 10000 ≤ (i 0).val ∧ (i 0).val < win1_3.index ⟨(i 0).val / 10000, hlt⟩ (0 : Fin 2) * 10000 + 10000
    rw [e30]; show (i 0).val / 10000 * 10000 ≤ (i 0).val ∧ (i 0).val < (i 0).val / 10000 * 10000 + 10000; omega
  | ⟨1, _⟩ =>
    show win1_3.index ⟨(i 0).val / 10000, hlt⟩ (1 : Fin 2) * 128 ≤ (i 1).val ∧ (i 1).val < win1_3.index ⟨(i 0).val / 10000, hlt⟩ (1 : Fin 2) * 128 + 128
    rw [e31]; omega

/-- THE OUTPUT ARRAY after the region: the layer of the arrays the region was entered with. -/
theorem final
    (hpay : ∀ (x0 : Vec Ideal S10000x128 .f32) (x1 : Vec Ideal S128x128 .f32) (x2 : Vec Ideal S128 .f32) (p : Fin 10000) (q : Fin 128),
      k1_pay1 (F := Ideal) x0 x1 x2 (ix2 p q) = max ((∑ k : Fin 128, x0 (ix2 p k) * x1 (ix2 k q)) + x2 (ix1 q)) 0)
    (c : Dev nD) : (dat1 (F := Ideal) V c).arrAt 3 cfg1.N = G V c :=
  (dat1 (F := Ideal) V c).arrAt_eq_of_cover 3 (G V c) (fun t _ => flushed_eq V hpay c t) cover

end Cert.KernelIdeal.Region1

end
-- ==== Proof.Region2.lean ====
/-
  Region 2 of the kernel, from blocks to the whole array. The grid has ten points; point `t` stages rows
  [10000·t, 10000·(t+1)) of the [100000, 128] input array, the whole weight matrix and the whole bias vector, and writes
  back rows [10000·t, 10000·(t+1)) of the output. The body's value at row `p`, column `q` of its block depends only on
  row `p` of the input block, so block `t` of the output is block `t` of ONE whole-array function — the dense layer
  `A · W + b` of the arrays as the region finds them — and the ten blocks tile the array:
  row `r` is in the block of point `r / 10000`.
-/
import proofs.«159424_j21105469293089_2_alg».proof.Proof.Gen.KernelIdeal.Frame
import proofs.«159424_j21105469293089_2_alg».proof.Proof.DenseSpec
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The layer as one function of the arrays the region is entered with. -/
def G (c : Dev nD) : S100000x128.Idx → EReal :=
  Cert.Dense.affine (V c main_v64) (V c main_arg7) (V c main_arg8)

/-- The printed index maps over the ten grid points: the input and the output move down one block of rows per point,
    the weights and the bias stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- What point `t` writes back is block `t` of the layer. -/
theorem flushed_eq
    (hpay : ∀ (x0 : Vec Ideal S10000x128 .f32) (x1 : Vec Ideal S128x128 .f32) (x2 : Vec Ideal S128 .f32) (p : Fin 10000) (q : Fin 128),
      k2_pay1 (F := Ideal) x0 x1 x2 (ix2 p q) = (∑ k : Fin 128, x0 (ix2 p k) * x1 (ix2 k q)) + x2 (ix1 q))
    (c : Dev nD) (t : Fin cfg2.N) :
    (dat2 (F := Ideal) V c).flushed 3 t = ((cfg2.win 3).blk t).view.read (Elt Ideal) (G V c) := by
  show (cfg2.win 3).cut (grid2.coords t) ((dat2 (F := Ideal) V c).after 3 t) = _
  rw [after2_3]
  unfold out2_3
  rw [View.canon_unit_zero hz2]
  simp only [View.ld_unit_zero (S := S10000x128) hz2, View.ld_unit_zero (S := S128x128) hz2, View.ld_unit_zero (S := S128) hz1]
  obtain ⟨e00, e01, e10, e11, e20, e30, e31⟩ := idx_facts t
  funext j
  obtain ⟨p, q, rfl⟩ : ∃ (p : Fin 10000) (q : Fin 128), j = ix2 p q := ⟨j 0, j 1, eq_ix2 j⟩
  refine (hpay (iblk2 V c 0 t) (iblk2 V c 1 t) (iblk2 V c 2 t) p q).trans ?_
  have ht : t.val < 10 := t.isLt
  have hr : t.val * 10000 + p.val < 100000 := by have := p.isLt; omega
  have e3 : ((cfg2.win 3).blk t).view.emb (ix2 p q) = (ix2 (⟨t.val * 10000 + p.val, hr⟩ : Fin 100000) q : S100000x128.Idx) := by
    funext a; apply Fin.ext
    match a with
    | ⟨0, _⟩ => show win2_3.index t (0 : Fin 2) * 10000 + 1 * p.val = t.val * 10000 + p.val; omega
    | ⟨1, _⟩ => show win2_3.index t (1 : Fin 2) * 128 + 1 * q.val = q.val; omega
  have h0 : ∀ k : Fin 128, iblk2 V c 0 t (ix2 p k)
      = (V c main_v64 : S100000x128.Idx → EReal) (ix2 (⟨t.val * 10000 + p.val, hr⟩ : Fin 100000) k) := fun k => by
    show (V c main_v64 : S100000x128.Idx → EReal) (((cfg2.win 0).blk t).view.emb (ix2 p k)) = _
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 128 + 1 * k.val = k.val; omega
  have h1 : ∀ k : Fin 128, iblk2 V c 1 t (ix2 k q) = (V c main_arg7 : S128x128.Idx → EReal) (ix2 k q) := fun k => by
    show (V c main_arg7 : S128x128.Idx → EReal) (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  have h2 : iblk2 V c 2 t (ix1 q) = (V c main_arg8 : S128.Idx → EReal) (ix1 q) := by
    show (V c main_arg8 : S128.Idx → EReal) (((cfg2.win 2).blk t).view.emb (ix1 q)) = _
    refine congrArg _ (funext fun a => Fin.ext ?_)
    match a with
    | ⟨0, _⟩ => show win2_2.index t (0 : Fin 1) * 128 + 1 * q.val = q.val; omega
  show _ = G V c (((cfg2.win 3).blk t).view.emb (ix2 p q))
  rw [e3]
  simp only [h0, h1, h2]
  rfl

/-- An index of the output array is in point `t`'s block iff each coordinate is in the block's range on its axis. -/
theorem mem_blk (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v65).slice (win2_3.rect t)).set ↔ _
  rw [View.set_slice_whole, Rect.mem_set_unit]
  exact Iff.rfl

/-- Every row of the output is in the block of the point `row / 10000`. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hlt : (i 0).val / 10000 < cfg2.N := by show (i 0).val / 10000 < 10; omega
  refine ⟨⟨(i 0).val / 10000, hlt⟩, flush2_3 _, ?_⟩
  rw [mem_blk]
  obtain ⟨-, -, -, -, -, e30, e31⟩ := idx_facts ⟨(i 0).val / 10000, hlt⟩
  intro a
  match a with
  | ⟨0, _⟩ =>
    show win2_3.index ⟨(i 0).val / 10000, hlt⟩ (0 : Fin 2) * 10000 ≤ (i 0).val ∧ (i 0).val < win2_3.index ⟨(i 0).val / 10000, hlt⟩ (0 : Fin 2) * 10000 + 10000
    rw [e30]; show (i 0).val / 10000 * 10000 ≤ (i 0).val ∧ (i 0).val < (i 0).val / 10000 * 10000 + 10000; omega
  | ⟨1, _⟩ =>
    show win2_3.index ⟨(i 0).val / 10000, hlt⟩ (1 : Fin 2) * 128 ≤ (i 1).val ∧ (i 1).val < win2_3.index ⟨(i 0).val / 10000, hlt⟩ (1 : Fin 2) * 128 + 128
    rw [e31]; omega

/-- THE OUTPUT ARRAY after the region: the layer of the arrays the region was entered with. -/
theorem final
    (hpay : ∀ (x0 : Vec Ideal S10000x128 .f32) (x1 : Vec Ideal S128x128 .f32) (x2 : Vec Ideal S128 .f32) (p : Fin 10000) (q : Fin 128),
      k2_pay1 (F := Ideal) x0 x1 x2 (ix2 p q) = (∑ k : Fin 128, x0 (ix2 p k) * x1 (ix2 k q)) + x2 (ix1 q))
    (c : Dev nD) : (dat2 (F := Ideal) V c).arrAt 3 cfg2.N = G V c :=
  (dat2 (F := Ideal) V c).arrAt_eq_of_cover 3 (G V c) (fun t _ => flushed_eq V hpay c t) cover

end Cert.KernelIdeal.Region2

end
-- ==== Proof.DensePayload.lean ====
/-
  The kernel's dense layer on one block of 10000 rows: the body multiplies the block by the whole weight matrix into a
  zero accumulator, adds the bias row broadcast down the block, and (hidden layers) takes the maximum with zero. Read
  at row `p` and column `q` of the block this is the sum over the 128 input features `k` of
  `block[p, k] · W[k, q]`, plus `b[q]`, clipped below at zero in the hidden layers.
-/
import proofs.«159424_j21105469293089_2_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.Dense.Payload

open Idealize.ShloMosaic Idealize.ShloMosaic.ValueIdx Cert.KernelIdeal Cert.KernelIdeal.Gen

variable [Cert.KernelIdeal.Facts]

/-! ## The product's two operand indices

The dimension numbers contract the left operand's axis 1 with the right operand's axis 0 and keep the left axis 0 and
the right axis 1, in that order, as the result's two axes. So at result index `(p, q)` and contraction coordinate `k`
the left operand is read at `(p, k)` and the right one at `(k, q)`. -/

/-- The one-axis contraction index of the block product is its coordinate in `Fin 128`. -/
abbrev contrE : dot_S10000x128_S128x128_S10000x128_1_0_0_1_n_n.contr.Idx ≃ Fin 128 :=
  contrEquiv1 dot_S10000x128_S128x128_S10000x128_1_0_0_1_n_n 128 rfl rfl

/-- The left operand of the block product at `(p, q)`, contraction coordinate `k`, is read at `(p, k)`. -/
theorem lhsIdx_eq (p : Fin 10000) (q k : Fin 128) :
    dot_S10000x128_S128x128_S10000x128_1_0_0_1_n_n.lhsIdx (ix2 p q) (contrE.symm k) = ix2 p k := by
  have hk := contrEquiv1_symm_val dot_S10000x128_S128x128_S10000x128_1_0_0_1_n_n 128 rfl rfl k
  funext a
  apply Fin.ext
  match a with
  | ⟨0, _⟩ =>
    show (dot_S10000x128_S128x128_S10000x128_1_0_0_1_n_n.lhsIdx (ix2 p q) (contrE.symm k) 0).val = p.val
    unfold DotDims.lhsIdx
    rw [dif_neg (show ¬(0 : Fin S10000x128.rank) ∈ dot_S10000x128_S128x128_S10000x128_1_0_0_1_n_n.lhsBatch by decide),
      dif_pos (show (0 : Fin S10000x128.rank) ∈ dot_S10000x128_S128x128_S10000x128_1_0_0_1_n_n.lhsNonContracting by decide)]
    rfl
  | ⟨1, _⟩ =>
    exact (dot_S10000x128_S128x128_S10000x128_1_0_0_1_n_n.lhsIdx_val_of_single rfl (ix2 p q) (contrE.symm k)).trans hk

/-- The right operand of the block product at `(p, q)`, contraction coordinate `k`, is read at `(k, q)`. -/
theorem rhsIdx_eq (p : Fin 10000) (q k : Fin 128) :
    dot_S10000x128_S128x128_S10000x128_1_0_0_1_n_n.rhsIdx (ix2 p q) (contrE.symm k) = ix2 k q := by
  have hk := contrEquiv1_symm_val dot_S10000x128_S128x128_S10000x128_1_0_0_1_n_n 128 rfl rfl k
  funext a
  apply Fin.ext
  match a with
  | ⟨0, _⟩ =>
    exact (dot_S10000x128_S128x128_S10000x128_1_0_0_1_n_n.rhsIdx_val_of_single rfl (ix2 p q) (contrE.symm k)).trans hk
  | ⟨1, _⟩ =>
    show (dot_S10000x128_S128x128_S10000x128_1_0_0_1_n_n.rhsIdx (ix2 p q) (contrE.symm k) 1).val = q.val
    unfold DotDims.rhsIdx
    rw [dif_neg (show ¬(1 : Fin S128x128.rank) ∈ dot_S10000x128_S128x128_S10000x128_1_0_0_1_n_n.rhsBatch by decide),
      dif_pos (show (1 : Fin S128x128.rank) ∈ dot_S10000x128_S128x128_S10000x128_1_0_0_1_n_n.rhsNonContracting by decide)]
    rfl

/-! ## The three pieces of a body, each read at `(p, q)` -/

/-- The product into a zero accumulator: the sum over the 128 input features of the products of the entries. -/
theorem product_apply (x0 : FVec Ideal S10000x128 .f32) (x1 : FVec Ideal S128x128 .f32) (p : Fin 10000) (q : Fin 128) :
    matmul (F := Ideal) dot_S10000x128_S128x128_S10000x128_1_0_0_1_n_n none
        (shapeCast S10000x128 x0 shapeCasts_S10000x128_S10000x128) x1 (constant S10000x128 .f32 0x00000000#32) (ix2 p q)
      = ∑ k : Fin 128, x0 (ix2 p k) * x1 (ix2 k q) := by
  rw [shapeCast_self]
  refine (Ideal.matmul_constant_zero_apply dot_S10000x128_S128x128_S10000x128_1_0_0_1_n_n none x0 x1 (ix2 p q)).trans ?_
  rw [← Equiv.sum_comp contrE.symm]
  refine Finset.sum_congr rfl fun k _ => ?_
  rw [lhsIdx_eq, rhsIdx_eq]

/-- The bias, given a leading unit axis and then repeated down the rows, reads `b[q]` in every row. -/
theorem bias_apply (x2 : FVec Ideal S128 .f32) (p : Fin 10000) (q : Fin 128) :
    broadcastTo S10000x128 (shapeCast S1x128 x2 shapeCasts_S128_S1x128) broadcasts_S1x128_S10000x128 (ix2 p q)
      = x2 (ix1 q) := by
  refine (broadcastTo_apply _ broadcasts_S1x128_S10000x128 (ix2 p q) (ix2 (⟨0, Nat.one_pos⟩ : Fin 1) q) (fun a => ?_)).trans ?_
  · match a with
    | ⟨0, _⟩ => show 0 = if (1 : Nat) = 1 then 0 else p.val; rw [if_pos rfl]
    | ⟨1, _⟩ => show q.val = if (128 : Nat) = 1 then 0 else q.val; rw [if_neg (by decide)]
  · refine (shapeCast_addUnit_apply ![128] x2 shapeCasts_S128_S1x128 (ix2 (⟨0, Nat.one_pos⟩ : Fin 1) q)).trans ?_
    refine congrArg x2 ?_
    funext a
    match a with
    | ⟨0, _⟩ => rfl

/-- Product plus bias at `(p, q)`. -/
theorem affine_apply (x0 : FVec Ideal S10000x128 .f32) (x1 : FVec Ideal S128x128 .f32) (x2 : FVec Ideal S128 .f32)
    (p : Fin 10000) (q : Fin 128) :
    addf (F := Ideal)
        (matmul (F := Ideal) dot_S10000x128_S128x128_S10000x128_1_0_0_1_n_n none
          (shapeCast S10000x128 x0 shapeCasts_S10000x128_S10000x128) x1 (constant S10000x128 .f32 0x00000000#32))
        (broadcastTo S10000x128 (shapeCast S1x128 x2 shapeCasts_S128_S1x128) broadcasts_S1x128_S10000x128) (ix2 p q)
      = (∑ k : Fin 128, x0 (ix2 p k) * x1 (ix2 k q)) + x2 (ix1 q) := by
  rw [addf_apply, product_apply, bias_apply]

/-- Product plus bias, clipped below at the splat of the zero word, at `(p, q)`. -/
theorem affineRelu_apply (x0 : FVec Ideal S10000x128 .f32) (x1 : FVec Ideal S128x128 .f32) (x2 : FVec Ideal S128 .f32)
    (p : Fin 10000) (q : Fin 128) :
    maximumf (F := Ideal)
        (addf (F := Ideal)
          (matmul (F := Ideal) dot_S10000x128_S128x128_S10000x128_1_0_0_1_n_n none
            (shapeCast S10000x128 x0 shapeCasts_S10000x128_S10000x128) x1 (constant S10000x128 .f32 0x00000000#32))
          (broadcastTo S10000x128 (shapeCast S1x128 x2 shapeCasts_S128_S1x128) broadcasts_S1x128_S10000x128))
        (broadcast S10000x128 (Scalar.ofBits (F := Ideal) .f32 0x00000000#32)) (ix2 p q)
      = max ((∑ k : Fin 128, x0 (ix2 p k) * x1 (ix2 k q)) + x2 (ix1 q)) 0 := by
  rw [maximumf_apply, affine_apply, broadcast_apply]
  show max _ (Ideal.ofBits .f32 0x00000000#32) = _
  rw [Ideal.ofBits_zero_f32]

/-! ## The three bodies -/

/-- First hidden layer's body at (p, q). -/
theorem pay0_apply (x0 : Vec Ideal S10000x128 .f32) (x1 : Vec Ideal S128x128 .f32) (x2 : Vec Ideal S128 .f32)
    (p : Fin 10000) (q : Fin 128) :
    k0_pay1 (F := Ideal) x0 x1 x2 (ix2 p q) = max ((∑ k : Fin 128, x0 (ix2 p k) * x1 (ix2 k q)) + x2 (ix1 q)) 0 :=
  affineRelu_apply x0 x1 x2 p q

/-- Second hidden layer's body at (p, q). -/
theorem pay1_apply (x0 : Vec Ideal S10000x128 .f32) (x1 : Vec Ideal S128x128 .f32) (x2 : Vec Ideal S128 .f32)
    (p : Fin 10000) (q : Fin 128) :
    k1_pay1 (F := Ideal) x0 x1 x2 (ix2 p q) = max ((∑ k : Fin 128, x0 (ix2 p k) * x1 (ix2 k q)) + x2 (ix1 q)) 0 :=
  affineRelu_apply x0 x1 x2 p q

/-- Output layer's body at (p, q): no clipping. -/
theorem pay2_apply (x0 : Vec Ideal S10000x128 .f32) (x1 : Vec Ideal S128x128 .f32) (x2 : Vec Ideal S128 .f32)
    (p : Fin 10000) (q : Fin 128) :
    k2_pay1 (F := Ideal) x0 x1 x2 (ix2 p q) = (∑ k : Fin 128, x0 (ix2 p k) * x1 (ix2 k q)) + x2 (ix1 q) :=
  affine_apply x0 x1 x2 p q

end Cert.Dense.Payload

end
-- ==== Proof.KernelValue.lean ====
/-
  The value of the idealized kernel's result: the fold of buffer contents through the program, read at the result.
  The host stretch before region 0 computes the two normalisation weights (reciprocal square roots of the clipped
  out- and in-degrees), the per-edge weight, and the first aggregation of the input features; each region applies
  its dense layer to the aggregated array it is entered with; the stretch before each later region aggregates the
  previous region's output with the same per-edge weight. No stretch and no region writes an argument or, after it is
  computed, the per-edge weight. So the result is the three-layer network with the normalisation applied per edge.
-/
import proofs.«159424_j21105469293089_2_alg».proof.Proof.Gen.KernelIdeal.Frame
import proofs.«159424_j21105469293089_2_alg».proof.Proof.HostReads
import proofs.«159424_j21105469293089_2_alg».proof.Proof.HostKeeps
import proofs.«159424_j21105469293089_2_alg».proof.Proof.Region0
import proofs.«159424_j21105469293089_2_alg».proof.Proof.Region1
import proofs.«159424_j21105469293089_2_alg».proof.Proof.Region2
import proofs.«159424_j21105469293089_2_alg».proof.Proof.DensePayload

set_option maxRecDepth 16384

noncomputable section

namespace Cert.KernelIdeal.Value

open Idealize.ShloMosaic Idealize.ShloMosaic.TcCoe Idealize.ShloMosaic.StableHlo
open Idealize.SL Idealize.SL.Sem
open Cert.KernelIdeal Cert.KernelIdeal.Gen Cert.GraphAgg Cert.KernelIdeal.Reads Cert.KernelIdeal.Keeps

variable (m : (ℓ : Loc nD τ sig) → Buf (Elt Ideal) ℓ) (ρ : Dev nD → PrngReg)

/-! ## The arguments at every boundary: as launched -/

theorem W9_arg0 (c : Dev nD) : W9 m ρ c (Proc.devRef .tc main_arg0) = (m ((c : Thread nD τ).loc main_arg0)) :=
  ((W10_of_ne m ρ c main_arg0 (by decide)).symm).trans (W10_main_arg0 m ρ c)
theorem W8_arg0 (c : Dev nD) : W8 m ρ c (Proc.devRef .tc main_arg0) = (m ((c : Thread nD τ).loc main_arg0)) :=
  ((keep_hostOps2_main_arg0 (W8 m ρ c)).symm).trans (W9_arg0 m ρ c)
theorem W7_arg0 (c : Dev nD) : W7 m ρ c (Proc.devRef .tc main_arg0) = (m ((c : Thread nD τ).loc main_arg0)) :=
  ((W8_of_ne m ρ c main_arg0 (by decide)).symm).trans (W8_arg0 m ρ c)
theorem W6_arg0 (c : Dev nD) : W6 m ρ c (Proc.devRef .tc main_arg0) = (m ((c : Thread nD τ).loc main_arg0)) :=
  ((keep_hostOps1_main_arg0 (W6 m ρ c)).symm).trans (W7_arg0 m ρ c)
theorem W5_arg0 (c : Dev nD) : W5 m ρ c (Proc.devRef .tc main_arg0) = (m ((c : Thread nD τ).loc main_arg0)) :=
  ((W6_of_ne m ρ c main_arg0 (by decide)).symm).trans (W6_arg0 m ρ c)
theorem W4_arg0 (c : Dev nD) : W4 m ρ c (Proc.devRef .tc main_arg0) = (m ((c : Thread nD τ).loc main_arg0)) :=
  ((keep_hostOps0_4_main_arg0 (W4 m ρ c)).symm).trans (W5_arg0 m ρ c)
theorem W9_arg1 (c : Dev nD) : W9 m ρ c (Proc.devRef .tc main_arg1) = (m ((c : Thread nD τ).loc main_arg1)) :=
  ((W10_of_ne m ρ c main_arg1 (by decide)).symm).trans (W10_main_arg1 m ρ c)
theorem W8_arg1 (c : Dev nD) : W8 m ρ c (Proc.devRef .tc main_arg1) = (m ((c : Thread nD τ).loc main_arg1)) :=
  ((keep_hostOps2_main_arg1 (W8 m ρ c)).symm).trans (W9_arg1 m ρ c)
theorem W7_arg1 (c : Dev nD) : W7 m ρ c (Proc.devRef .tc main_arg1) = (m ((c : Thread nD τ).loc main_arg1)) :=
  ((W8_of_ne m ρ c main_arg1 (by decide)).symm).trans (W8_arg1 m ρ c)
theorem W6_arg1 (c : Dev nD) : W6 m ρ c (Proc.devRef .tc main_arg1) = (m ((c : Thread nD τ).loc main_arg1)) :=
  ((keep_hostOps1_main_arg1 (W6 m ρ c)).symm).trans (W7_arg1 m ρ c)
theorem W5_arg1 (c : Dev nD) : W5 m ρ c (Proc.devRef .tc main_arg1) = (m ((c : Thread nD τ).loc main_arg1)) :=
  ((W6_of_ne m ρ c main_arg1 (by decide)).symm).trans (W6_arg1 m ρ c)
theorem W4_arg1 (c : Dev nD) : W4 m ρ c (Proc.devRef .tc main_arg1) = (m ((c : Thread nD τ).loc main_arg1)) :=
  ((keep_hostOps0_4_main_arg1 (W4 m ρ c)).symm).trans (W5_arg1 m ρ c)
theorem W9_arg2 (c : Dev nD) : W9 m ρ c (Proc.devRef .tc main_arg2) = (m ((c : Thread nD τ).loc main_arg2)) :=
  ((W10_of_ne m ρ c main_arg2 (by decide)).symm).trans (W10_main_arg2 m ρ c)
theorem W8_arg2 (c : Dev nD) : W8 m ρ c (Proc.devRef .tc main_arg2) = (m ((c : Thread nD τ).loc main_arg2)) :=
  ((keep_hostOps2_main_arg2 (W8 m ρ c)).symm).trans (W9_arg2 m ρ c)
theorem W7_arg2 (c : Dev nD) : W7 m ρ c (Proc.devRef .tc main_arg2) = (m ((c : Thread nD τ).loc main_arg2)) :=
  ((W8_of_ne m ρ c main_arg2 (by decide)).symm).trans (W8_arg2 m ρ c)
theorem W6_arg2 (c : Dev nD) : W6 m ρ c (Proc.devRef .tc main_arg2) = (m ((c : Thread nD τ).loc main_arg2)) :=
  ((keep_hostOps1_main_arg2 (W6 m ρ c)).symm).trans (W7_arg2 m ρ c)
theorem W5_arg2 (c : Dev nD) : W5 m ρ c (Proc.devRef .tc main_arg2) = (m ((c : Thread nD τ).loc main_arg2)) :=
  ((W6_of_ne m ρ c main_arg2 (by decide)).symm).trans (W6_arg2 m ρ c)
theorem W4_arg2 (c : Dev nD) : W4 m ρ c (Proc.devRef .tc main_arg2) = (m ((c : Thread nD τ).loc main_arg2)) :=
  ((keep_hostOps0_4_main_arg2 (W4 m ρ c)).symm).trans (W5_arg2 m ρ c)
theorem W9_arg3 (c : Dev nD) : W9 m ρ c (Proc.devRef .tc main_arg3) = (m ((c : Thread nD τ).loc main_arg3)) :=
  ((W10_of_ne m ρ c main_arg3 (by decide)).symm).trans (W10_main_arg3 m ρ c)
theorem W8_arg3 (c : Dev nD) : W8 m ρ c (Proc.devRef .tc main_arg3) = (m ((c : Thread nD τ).loc main_arg3)) :=
  ((keep_hostOps2_main_arg3 (W8 m ρ c)).symm).trans (W9_arg3 m ρ c)
theorem W7_arg3 (c : Dev nD) : W7 m ρ c (Proc.devRef .tc main_arg3) = (m ((c : Thread nD τ).loc main_arg3)) :=
  ((W8_of_ne m ρ c main_arg3 (by decide)).symm).trans (W8_arg3 m ρ c)
theorem W6_arg3 (c : Dev nD) : W6 m ρ c (Proc.devRef .tc main_arg3) = (m ((c : Thread nD τ).loc main_arg3)) :=
  ((keep_hostOps1_main_arg3 (W6 m ρ c)).symm).trans (W7_arg3 m ρ c)
theorem W5_arg3 (c : Dev nD) : W5 m ρ c (Proc.devRef .tc main_arg3) = (m ((c : Thread nD τ).loc main_arg3)) :=
  (((W6_arr m ρ c 1).trans (((dat0 (V5 m ρ) c).arrAt_in 1 rfl _).trans (A_eq0 (V5 m ρ) c 1))).symm).trans (W6_arg3 m ρ c)
theorem W9_arg4 (c : Dev nD) : W9 m ρ c (Proc.devRef .tc main_arg4) = (m ((c : Thread nD τ).loc main_arg4)) :=
  ((W10_of_ne m ρ c main_arg4 (by decide)).symm).trans (W10_main_arg4 m ρ c)
theorem W8_arg4 (c : Dev nD) : W8 m ρ c (Proc.devRef .tc main_arg4) = (m ((c : Thread nD τ).loc main_arg4)) :=
  ((keep_hostOps2_main_arg4 (W8 m ρ c)).symm).trans (W9_arg4 m ρ c)
theorem W7_arg4 (c : Dev nD) : W7 m ρ c (Proc.devRef .tc main_arg4) = (m ((c : Thread nD τ).loc main_arg4)) :=
  ((W8_of_ne m ρ c main_arg4 (by decide)).symm).trans (W8_arg4 m ρ c)
theorem W6_arg4 (c : Dev nD) : W6 m ρ c (Proc.devRef .tc main_arg4) = (m ((c : Thread nD τ).loc main_arg4)) :=
  ((keep_hostOps1_main_arg4 (W6 m ρ c)).symm).trans (W7_arg4 m ρ c)
theorem W5_arg4 (c : Dev nD) : W5 m ρ c (Proc.devRef .tc main_arg4) = (m ((c : Thread nD τ).loc main_arg4)) :=
  (((W6_arr m ρ c 2).trans (((dat0 (V5 m ρ) c).arrAt_in 2 rfl _).trans (A_eq0 (V5 m ρ) c 2))).symm).trans (W6_arg4 m ρ c)
theorem W9_arg5 (c : Dev nD) : W9 m ρ c (Proc.devRef .tc main_arg5) = (m ((c : Thread nD τ).loc main_arg5)) :=
  ((W10_of_ne m ρ c main_arg5 (by decide)).symm).trans (W10_main_arg5 m ρ c)
theorem W8_arg5 (c : Dev nD) : W8 m ρ c (Proc.devRef .tc main_arg5) = (m ((c : Thread nD τ).loc main_arg5)) :=
  ((keep_hostOps2_main_arg5 (W8 m ρ c)).symm).trans (W9_arg5 m ρ c)
theorem W7_arg5 (c : Dev nD) : W7 m ρ c (Proc.devRef .tc main_arg5) = (m ((c : Thread nD τ).loc main_arg5)) :=
  (((W8_arr m ρ c 1).trans (((dat1 (V7 m ρ) c).arrAt_in 1 rfl _).trans (A_eq1 (V7 m ρ) c 1))).symm).trans (W8_arg5 m ρ c)
theorem W6_arg5 (c : Dev nD) : W6 m ρ c (Proc.devRef .tc main_arg5) = (m ((c : Thread nD τ).loc main_arg5)) :=
  ((keep_hostOps1_main_arg5 (W6 m ρ c)).symm).trans (W7_arg5 m ρ c)
theorem W5_arg5 (c : Dev nD) : W5 m ρ c (Proc.devRef .tc main_arg5) = (m ((c : Thread nD τ).loc main_arg5)) :=
  ((W6_of_ne m ρ c main_arg5 (by decide)).symm).trans (W6_arg5 m ρ c)
theorem W9_arg6 (c : Dev nD) : W9 m ρ c (Proc.devRef .tc main_arg6) = (m ((c : Thread nD τ).loc main_arg6)) :=
  ((W10_of_ne m ρ c main_arg6 (by decide)).symm).trans (W10_main_arg6 m ρ c)
theorem W8_arg6 (c : Dev nD) : W8 m ρ c (Proc.devRef .tc main_arg6) = (m ((c : Thread nD τ).loc main_arg6)) :=
  ((keep_hostOps2_main_arg6 (W8 m ρ c)).symm).trans (W9_arg6 m ρ c)
theorem W7_arg6 (c : Dev nD) : W7 m ρ c (Proc.devRef .tc main_arg6) = (m ((c : Thread nD τ).loc main_arg6)) :=
  (((W8_arr m ρ c 2).trans (((dat1 (V7 m ρ) c).arrAt_in 2 rfl _).trans (A_eq1 (V7 m ρ) c 2))).symm).trans (W8_arg6 m ρ c)
theorem W6_arg6 (c : Dev nD) : W6 m ρ c (Proc.devRef .tc main_arg6) = (m ((c : Thread nD τ).loc main_arg6)) :=
  ((keep_hostOps1_main_arg6 (W6 m ρ c)).symm).trans (W7_arg6 m ρ c)
theorem W5_arg6 (c : Dev nD) : W5 m ρ c (Proc.devRef .tc main_arg6) = (m ((c : Thread nD τ).loc main_arg6)) :=
  ((W6_of_ne m ρ c main_arg6 (by decide)).symm).trans (W6_arg6 m ρ c)
theorem W9_arg7 (c : Dev nD) : W9 m ρ c (Proc.devRef .tc main_arg7) = (m ((c : Thread nD τ).loc main_arg7)) :=
  (((W10_arr m ρ c 1).trans (((dat2 (V9 m ρ) c).arrAt_in 1 rfl _).trans (A_eq2 (V9 m ρ) c 1))).symm).trans (W10_main_arg7 m ρ c)
theorem W8_arg7 (c : Dev nD) : W8 m ρ c (Proc.devRef .tc main_arg7) = (m ((c : Thread nD τ).loc main_arg7)) :=
  ((keep_hostOps2_main_arg7 (W8 m ρ c)).symm).trans (W9_arg7 m ρ c)
theorem W7_arg7 (c : Dev nD) : W7 m ρ c (Proc.devRef .tc main_arg7) = (m ((c : Thread nD τ).loc main_arg7)) :=
  ((W8_of_ne m ρ c main_arg7 (by decide)).symm).trans (W8_arg7 m ρ c)
theorem W6_arg7 (c : Dev nD) : W6 m ρ c (Proc.devRef .tc main_arg7) = (m ((c : Thread nD τ).loc main_arg7)) :=
  ((keep_hostOps1_main_arg7 (W6 m ρ c)).symm).trans (W7_arg7 m ρ c)
theorem W5_arg7 (c : Dev nD) : W5 m ρ c (Proc.devRef .tc main_arg7) = (m ((c : Thread nD τ).loc main_arg7)) :=
  ((W6_of_ne m ρ c main_arg7 (by decide)).symm).trans (W6_arg7 m ρ c)
theorem W9_arg8 (c : Dev nD) : W9 m ρ c (Proc.devRef .tc main_arg8) = (m ((c : Thread nD τ).loc main_arg8)) :=
  (((W10_arr m ρ c 2).trans (((dat2 (V9 m ρ) c).arrAt_in 2 rfl _).trans (A_eq2 (V9 m ρ) c 2))).symm).trans (W10_main_arg8 m ρ c)
theorem W8_arg8 (c : Dev nD) : W8 m ρ c (Proc.devRef .tc main_arg8) = (m ((c : Thread nD τ).loc main_arg8)) :=
  ((keep_hostOps2_main_arg8 (W8 m ρ c)).symm).trans (W9_arg8 m ρ c)
theorem W7_arg8 (c : Dev nD) : W7 m ρ c (Proc.devRef .tc main_arg8) = (m ((c : Thread nD τ).loc main_arg8)) :=
  ((W8_of_ne m ρ c main_arg8 (by decide)).symm).trans (W8_arg8 m ρ c)
theorem W6_arg8 (c : Dev nD) : W6 m ρ c (Proc.devRef .tc main_arg8) = (m ((c : Thread nD τ).loc main_arg8)) :=
  ((keep_hostOps1_main_arg8 (W6 m ρ c)).symm).trans (W7_arg8 m ρ c)
theorem W5_arg8 (c : Dev nD) : W5 m ρ c (Proc.devRef .tc main_arg8) = (m ((c : Thread nD τ).loc main_arg8)) :=
  ((W6_of_ne m ρ c main_arg8 (by decide)).symm).trans (W6_arg8 m ρ c)

/-! ## The normalisation weights and the per-edge weight -/

/-- The out-degree weight, ready before region 0's stretch. -/
theorem W4_v8 (c : Dev nD) : W4 m ρ c (Proc.devRef .tc main_v8) = (GraphAgg.norm scatter_S100000_S1600000x1_S1600000_n_0_0_1_wf bcast_S_S1600000 bcast_S_S100000 bcast_S1600000_S1600000x1_0 (m ((c : Thread nD τ).loc main_arg1))) := by
  refine (keep_hostOps0_3_main_v8 (W3 m ρ c)).trans ?_
  refine (ops0_2_v8 (W2 m ρ c)).trans ?_
  rw [show W2 m ρ c (Proc.devRef .tc main_v7) = _ from ops0_1_v7 (W1 m ρ c)]
  rw [show W1 m ρ c (Proc.devRef .tc main_cst_2) = _ from ops0_cst2 (W0 m ρ c), show W1 m ρ c (Proc.devRef .tc main_v3) = _ from ops0_v3 (W0 m ρ c)]
  rfl

/-- The clipped in-degree, ready before region 0's stretch. -/
theorem W4_v9 (c : Dev nD) : Host.rsqrt (F := Ideal) (W4 m ρ c (Proc.devRef .tc main_v9)) = (GraphAgg.norm scatter_S100000_S1600000x1_S1600000_n_0_0_1_wf bcast_S_S1600000 bcast_S_S100000 bcast_S1600000_S1600000x1_0 (m ((c : Thread nD τ).loc main_arg2))) := by
  rw [show W4 m ρ c (Proc.devRef .tc main_v9) = _ from ops0_3_v9 (W3 m ρ c)]
  rw [show W3 m ρ c (Proc.devRef .tc main_cst_3) = _ from ops0_2_cst3 (W2 m ρ c)]
  rw [show W3 m ρ c (Proc.devRef .tc main_v6) = _ from (keep_hostOps0_2_main_v6 (W2 m ρ c)).trans ((keep_hostOps0_1_main_v6 (W1 m ρ c)).trans (ops0_v6 (W0 m ρ c)))]
  rfl

/-- The per-edge weight. -/
abbrev we (c : Dev nD) : FVec Ideal SE1 .f32 := edgeWeight (m ((c : Thread nD τ).loc main_arg1)) (m ((c : Thread nD τ).loc main_arg2)) (GraphAgg.norm scatter_S100000_S1600000x1_S1600000_n_0_0_1_wf bcast_S_S1600000 bcast_S_S100000 bcast_S1600000_S1600000x1_0 (m ((c : Thread nD τ).loc main_arg1))) (GraphAgg.norm scatter_S100000_S1600000x1_S1600000_n_0_0_1_wf bcast_S_S1600000 bcast_S_S100000 bcast_S1600000_S1600000x1_0 (m ((c : Thread nD τ).loc main_arg2)))

theorem W5_v26 (c : Dev nD) : W5 m ρ c (Proc.devRef .tc main_v26) = we m c := by
  refine (ops0_4_v26 (W4 m ρ c)).trans ?_
  rw [W4_arg1, W4_arg2, W4_v8, W4_v9]
theorem W6_v26 (c : Dev nD) : W6 m ρ c (Proc.devRef .tc main_v26) = we m c :=
  (W6_of_ne m ρ c main_v26 (by decide)).trans (W5_v26 m ρ c)
theorem W7_v26 (c : Dev nD) : W7 m ρ c (Proc.devRef .tc main_v26) = we m c :=
  (keep_hostOps1_main_v26 (W6 m ρ c)).trans (W6_v26 m ρ c)
theorem W8_v26 (c : Dev nD) : W8 m ρ c (Proc.devRef .tc main_v26) = we m c :=
  (W8_of_ne m ρ c main_v26 (by decide)).trans (W7_v26 m ρ c)

/-! ## The features, layer by layer -/

/-- Region 0 is entered with the aggregated input features. -/
theorem W5_v38 (c : Dev nD) : W5 m ρ c (Proc.devRef .tc main_v38) = (aggEdge scatter_S100000x128_S1600000x1_S1600000x128_1_0_0_1_wf gather_S100000x128_S1600000x1_S1600000x128_1_0_n_n_0_1_1128_wf gather_S100000_S1600000x1_S1600000_n_0_n_n_0_1_1_wf bcast_S_S1600000 bcast_S_S100000x128 bcast_S1600000_S1600000x1_0 bcast_S1600000x1_S1600000x128_0_1 (m ((c : Thread nD τ).loc main_arg0)) (m ((c : Thread nD τ).loc main_arg1)) (m ((c : Thread nD τ).loc main_arg2)) (GraphAgg.norm scatter_S100000_S1600000x1_S1600000_n_0_0_1_wf bcast_S_S1600000 bcast_S_S100000 bcast_S1600000_S1600000x1_0 (m ((c : Thread nD τ).loc main_arg1))) (GraphAgg.norm scatter_S100000_S1600000x1_S1600000_n_0_0_1_wf bcast_S_S1600000 bcast_S_S100000 bcast_S1600000_S1600000x1_0 (m ((c : Thread nD τ).loc main_arg2)))) := by
  refine (ops0_4_v38 (W4 m ρ c)).trans ?_
  rw [W4_arg0, W4_arg1, W4_arg2, W4_v8, W4_v9]
  exact aggWith_edgeWeight _ _ _ _ _

/-- The first hidden layer. -/
def h1 (c : Dev nD) : Dense.SND.Idx → EReal := Cert.Dense.affineRelu (aggEdge scatter_S100000x128_S1600000x1_S1600000x128_1_0_0_1_wf gather_S100000x128_S1600000x1_S1600000x128_1_0_n_n_0_1_1128_wf gather_S100000_S1600000x1_S1600000_n_0_n_n_0_1_1_wf bcast_S_S1600000 bcast_S_S100000x128 bcast_S1600000_S1600000x1_0 bcast_S1600000x1_S1600000x128_0_1 (m ((c : Thread nD τ).loc main_arg0)) (m ((c : Thread nD τ).loc main_arg1)) (m ((c : Thread nD τ).loc main_arg2)) (GraphAgg.norm scatter_S100000_S1600000x1_S1600000_n_0_0_1_wf bcast_S_S1600000 bcast_S_S100000 bcast_S1600000_S1600000x1_0 (m ((c : Thread nD τ).loc main_arg1))) (GraphAgg.norm scatter_S100000_S1600000x1_S1600000_n_0_0_1_wf bcast_S_S1600000 bcast_S_S100000 bcast_S1600000_S1600000x1_0 (m ((c : Thread nD τ).loc main_arg2)))) (m ((c : Thread nD τ).loc main_arg3)) (m ((c : Thread nD τ).loc main_arg4))

theorem W6_v39 (c : Dev nD) : (W6 m ρ c (Proc.devRef .tc main_v39) : S100000x128.Idx → EReal) = h1 m c := by
  refine (W6_arr m ρ c 3).trans ?_
  refine (Region0.final (V5 m ρ) Cert.Dense.Payload.pay0_apply c).trans ?_
  unfold Region0.G h1
  rw [show V5 m ρ c main_v38 = _ from W5_v38 m ρ c, show V5 m ρ c main_arg3 = _ from W5_arg3 m ρ c, show V5 m ρ c main_arg4 = _ from W5_arg4 m ρ c]

/-- Region 1 is entered with the aggregated first hidden layer. -/
theorem W7_v51 (c : Dev nD) : W7 m ρ c (Proc.devRef .tc main_v51) = (aggEdge scatter_S100000x128_S1600000x1_S1600000x128_1_0_0_1_wf gather_S100000x128_S1600000x1_S1600000x128_1_0_n_n_0_1_1128_wf gather_S100000_S1600000x1_S1600000_n_0_n_n_0_1_1_wf bcast_S_S1600000 bcast_S_S100000x128 bcast_S1600000_S1600000x1_0 bcast_S1600000x1_S1600000x128_0_1 (h1 m c) (m ((c : Thread nD τ).loc main_arg1)) (m ((c : Thread nD τ).loc main_arg2)) (GraphAgg.norm scatter_S100000_S1600000x1_S1600000_n_0_0_1_wf bcast_S_S1600000 bcast_S_S100000 bcast_S1600000_S1600000x1_0 (m ((c : Thread nD τ).loc main_arg1))) (GraphAgg.norm scatter_S100000_S1600000x1_S1600000_n_0_0_1_wf bcast_S_S1600000 bcast_S_S100000 bcast_S1600000_S1600000x1_0 (m ((c : Thread nD τ).loc main_arg2)))) := by
  refine (ops1_v51 (W6 m ρ c)).trans ?_
  rw [W6_arg1, W6_arg2, W6_v26, show W6 m ρ c (Proc.devRef .tc main_v39) = _ from W6_v39 m ρ c]
  exact aggWith_edgeWeight _ _ _ _ _

/-- The second hidden layer. -/
def h2 (c : Dev nD) : Dense.SND.Idx → EReal := Cert.Dense.affineRelu (aggEdge scatter_S100000x128_S1600000x1_S1600000x128_1_0_0_1_wf gather_S100000x128_S1600000x1_S1600000x128_1_0_n_n_0_1_1128_wf gather_S100000_S1600000x1_S1600000_n_0_n_n_0_1_1_wf bcast_S_S1600000 bcast_S_S100000x128 bcast_S1600000_S1600000x1_0 bcast_S1600000x1_S1600000x128_0_1 (h1 m c) (m ((c : Thread nD τ).loc main_arg1)) (m ((c : Thread nD τ).loc main_arg2)) (GraphAgg.norm scatter_S100000_S1600000x1_S1600000_n_0_0_1_wf bcast_S_S1600000 bcast_S_S100000 bcast_S1600000_S1600000x1_0 (m ((c : Thread nD τ).loc main_arg1))) (GraphAgg.norm scatter_S100000_S1600000x1_S1600000_n_0_0_1_wf bcast_S_S1600000 bcast_S_S100000 bcast_S1600000_S1600000x1_0 (m ((c : Thread nD τ).loc main_arg2)))) (m ((c : Thread nD τ).loc main_arg5)) (m ((c : Thread nD τ).loc main_arg6))

theorem W8_v52 (c : Dev nD) : (W8 m ρ c (Proc.devRef .tc main_v52) : S100000x128.Idx → EReal) = h2 m c := by
  refine (W8_arr m ρ c 3).trans ?_
  refine (Region1.final (V7 m ρ) Cert.Dense.Payload.pay1_apply c).trans ?_
  unfold Region1.G h2
  rw [show V7 m ρ c main_v51 = _ from W7_v51 m ρ c, show V7 m ρ c main_arg5 = _ from W7_arg5 m ρ c, show V7 m ρ c main_arg6 = _ from W7_arg6 m ρ c]

/-- Region 2 is entered with the aggregated second hidden layer. -/
theorem W9_v64 (c : Dev nD) : W9 m ρ c (Proc.devRef .tc main_v64) = (aggEdge scatter_S100000x128_S1600000x1_S1600000x128_1_0_0_1_wf gather_S100000x128_S1600000x1_S1600000x128_1_0_n_n_0_1_1128_wf gather_S100000_S1600000x1_S1600000_n_0_n_n_0_1_1_wf bcast_S_S1600000 bcast_S_S100000x128 bcast_S1600000_S1600000x1_0 bcast_S1600000x1_S1600000x128_0_1 (h2 m c) (m ((c : Thread nD τ).loc main_arg1)) (m ((c : Thread nD τ).loc main_arg2)) (GraphAgg.norm scatter_S100000_S1600000x1_S1600000_n_0_0_1_wf bcast_S_S1600000 bcast_S_S100000 bcast_S1600000_S1600000x1_0 (m ((c : Thread nD τ).loc main_arg1))) (GraphAgg.norm scatter_S100000_S1600000x1_S1600000_n_0_0_1_wf bcast_S_S1600000 bcast_S_S100000 bcast_S1600000_S1600000x1_0 (m ((c : Thread nD τ).loc main_arg2)))) := by
  refine (ops2_v64 (W8 m ρ c)).trans ?_
  rw [W8_arg1, W8_arg2, W8_v26, show W8 m ρ c (Proc.devRef .tc main_v52) = _ from W8_v52 m ρ c]
  exact aggWith_edgeWeight _ _ _ _ _

/-- THE RESULT: the output layer of the aggregated second hidden layer. -/
theorem W10_v65 (c : Dev nD) : (W10 m ρ c (Proc.devRef .tc main_v65) : S100000x128.Idx → EReal)
    = Cert.Dense.affine (aggEdge scatter_S100000x128_S1600000x1_S1600000x128_1_0_0_1_wf gather_S100000x128_S1600000x1_S1600000x128_1_0_n_n_0_1_1128_wf gather_S100000_S1600000x1_S1600000_n_0_n_n_0_1_1_wf bcast_S_S1600000 bcast_S_S100000x128 bcast_S1600000_S1600000x1_0 bcast_S1600000x1_S1600000x128_0_1 (h2 m c) (m ((c : Thread nD τ).loc main_arg1)) (m ((c : Thread nD τ).loc main_arg2)) (GraphAgg.norm scatter_S100000_S1600000x1_S1600000_n_0_0_1_wf bcast_S_S1600000 bcast_S_S100000 bcast_S1600000_S1600000x1_0 (m ((c : Thread nD τ).loc main_arg1))) (GraphAgg.norm scatter_S100000_S1600000x1_S1600000_n_0_0_1_wf bcast_S_S1600000 bcast_S_S100000 bcast_S1600000_S1600000x1_0 (m ((c : Thread nD τ).loc main_arg2)))) (m ((c : Thread nD τ).loc main_arg7)) (m ((c : Thread nD τ).loc main_arg8)) := by
  refine (W10_arr m ρ c 3).trans ?_
  refine (Region2.final (V9 m ρ) Cert.Dense.Payload.pay2_apply c).trans ?_
  unfold Region2.G
  rw [show V9 m ρ c main_v64 = _ from W9_v64 m ρ c, show V9 m ρ c main_arg7 = _ from W9_arg7 m ρ c, show V9 m ρ c main_arg8 = _ from W9_arg8 m ρ c]

end Cert.KernelIdeal.Value

end
-- ==== Proof.AggIdx.lean ====
/-
  Which element an indexed operation touches, for the two gathers and the row scatter of a graph aggregation.

  A gather along axis 0 with one start index per edge reads, for edge `e`, the operand's row whose number is the
  edge's index read as a signed integer and clamped into `[0, N − 1]`; the remaining coordinate (the feature, for the
  row gather) is kept. A scattered update of edge `e` lands at row `idx[e]` when that number, read signed, is a row
  of the operand (and is dropped otherwise), so an edge that landed at row `n` has `idx[e] = n` as integers. Such an
  index is not negative, so it is not counted from the end, and it is its own clamp.
-/
import proofs.«159424_j21105469293089_2_alg».proof.Proof.AggDefs
import Idealize.ShloMosaic.PureOps.Ideal
import Idealize.ShloMosaic.Lib.ValueIdx
import Idealize.ShloMosaic.Lib.Pipeline.Value

noncomputable section

namespace Cert.GraphAgg

open Idealize.ShloMosaic Idealize.ShloMosaic.ValueIdx

/-- The clamped row an edge reads: its index, read signed, brought into `[0, N − 1]`. -/
def clampRow (idx : IVec SE1 32) (e : Fin 1600000) : Fin 100000 :=
  ⟨min (idx (ix2 e 0)).toInt.toNat (100000 - 1), by omega⟩

/-- An index that is a row number is its own clamp. -/
theorem clampRow_of_landed (idx : IVec SE1 32) (e : Fin 1600000) (n : Fin 100000)
    (h : (idx (ix2 e 0)).toInt = (n.val : Int)) : clampRow idx e = n := by
  apply Fin.ext
  show min (idx (ix2 e 0)).toInt.toNat (100000 - 1) = n.val
  rw [h]
  have := n.isLt
  omega

/-- The gather of entries of an `[N]` array reads, for edge `e`, the entry at the edge's clamped index: the one
    operand axis is collapsed and named by the start index map, so its coordinate is the clamped start alone. -/
theorem vecGather_apply {α : Type} (wf : GatherDims.WF SN SE1 SE [] [0] [] [0] [] 1 ![1])
    (x : SN.Idx → α) (idx : IVec SE1 32) (e : SE.Idx) :
    Host.gather (vecGather wf) x idx e = x (ix1 (clampRow idx (e 0))) := by
  unfold Host.gather
  congr 1
  funext a
  refine Fin.ext ?_
  match a with
  | ⟨0, _⟩ =>
    show (vecGather wf).start e idx 0 + (vecGather wf).batchCoord e 0 + (vecGather wf).offCoord e 0
      = (clampRow idx (e 0)).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather wf).startIndexMap from List.mem_singleton.mpr rfl)]
    have hsi : (vecGather wf).siIdx e ⟨List.idxOf (0 : Fin 1) (vecGather wf).startIndexMap,
        List.idxOf_lt_length_iff.2 (List.mem_singleton.mpr rfl)⟩ = ix2 (e 0) 0 := by
      funext b; refine Fin.ext ?_
      match b with
      | ⟨0, _⟩ => rfl
      | ⟨1, _⟩ => rfl
    rw [hsi]
    rfl

/-- The gather of rows of an `[N, D]` array reads, for edge `j 0` and feature `j 1`, the entry at the edge's clamped
    row and that feature: axis 0 is collapsed and named by the start index map (its coordinate is the clamped start),
    axis 1 is kept whole (its start is 0 and its coordinate is the result's offset coordinate). -/
theorem rowGather_apply {α : Type} (wf : GatherDims.WF SND SE1 SED [1] [0] [] [0] [] 1 ![1, 128])
    (x : SND.Idx → α) (idx : IVec SE1 32) (j : SED.Idx) :
    Host.gather (rowGather wf) x idx j = x (ix2 (clampRow idx (j 0)) (j 1)) := by
  unfold Host.gather
  congr 1
  funext a
  refine Fin.ext ?_
  match a with
  | ⟨0, _⟩ =>
    show (rowGather wf).start j idx 0 + (rowGather wf).batchCoord j 0 + (rowGather wf).offCoord j 0
      = (clampRow idx (j 0)).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather wf).startIndexMap from List.mem_singleton.mpr rfl)]
    have hsi : (rowGather wf).siIdx j ⟨List.idxOf (0 : Fin 2) (rowGather wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (rowGather wf).start j idx 1 + (rowGather wf).batchCoord j 1 + (rowGather wf).offCoord j 1 = (j 1).val
    have h1 : ¬ (1 : Fin 2) ∈ ([0] : List (Fin 2)) := by decide
    have hs : (rowGather wf).start j idx 1 = 0 := by
      unfold GatherDims.start
      exact dif_neg h1
    have hk : (1 : Fin 2) ∈ (rowGather wf).sKept := (GatherDims.mem_sKept _ _).mpr ⟨h1, List.not_mem_nil⟩
    rw [GatherDims.batchCoord_eq_zero _ _ _ List.not_mem_nil, hs]
    unfold GatherDims.offCoord
    rw [dif_pos hk]
    simp only [Nat.add_zero, Nat.zero_add]
    rfl

/-- An update of the row scatter that landed at `i` has, as its index read signed, the row number `i 0`: on axis 0
    the landing coordinate is the start index (not clamped) plus a window coordinate that is 0 there. -/
theorem rowScatter_landed (wf : ScatterDims.WF SND SE1 SED [1] [0] [0] 1) (idx : IVec SE1 32) (j : SED.Idx) (i : SND.Idx)
    (h : (rowScatter wf).resultIdx? j idx = some i) : (idx (ix2 (j 0) 0)).toInt = ((i 0).val : Int) := by
  unfold ScatterDims.resultIdx? at h
  split at h
  · rename_i hin
    have hv : ((rowScatter wf).start j idx 0 + ((rowScatter wf).window j 0 : Int)).toNat = (i 0).val :=
      congrArg Fin.val (congrFun (Option.some.inj h) 0)
    have hstart : (rowScatter wf).start j idx 0 = (idx (ix2 (j 0) 0)).toInt := by
      unfold ScatterDims.start
      rw [dif_pos (show (0 : Fin 2) ∈ (rowScatter wf).scatterDimsToOperandDims from List.mem_singleton.mpr rfl)]
      have hsi : (rowScatter wf).siIdx j ⟨List.idxOf (0 : Fin 2) (rowScatter wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      exact congrArg (fun k => (idx k).toInt) hsi
    have hwin : (rowScatter wf).window j 0 = 0 := by
      unfold ScatterDims.window
      have h0 : ¬ (0 : Fin 2) ∈ (rowScatter wf).sKept := fun hm => by
        have h2 := (List.mem_filter.mp hm).2
        have h3 : ¬ (0 : Fin 2) ∈ ([0] : List (Fin 2)) := of_decide_eq_true h2
        exact h3 (List.mem_singleton.mpr rfl)
      exact dif_neg h0
    have hnn := (hin 0).1
    rw [hstart, hwin] at hnn hv
    omega
  · exact absurd h (by simp)

/-- An index that is a row number is not negative, so it is not counted from the end: the comparison with zero gives
    the bit 0 and the select keeps the index itself. -/
theorem wrap_of_landed (hE : S0.BroadcastsInDim SE (![] : Fin 0 → Fin 1)) (idx : IVec SE 32) (e : Fin 1600000)
    (n : Fin 100000) (h : (idx (ix1 e)).toInt = (n.val : Int)) : wrap hE idx (ix1 e) = idx (ix1 e) := by
  unfold wrap
  rw [select_apply]
  have hlt : ¬ (idx (ix1 e)).toInt < (0#32 : BitVec 32).toInt := by
    rw [h, show (0#32 : BitVec 32).toInt = 0 from by decide]
    omega
  have hs : (idx (ix1 e)).slt 0#32 = false := decide_eq_false hlt
  have hc : cmpi .slt idx (broadcastInDim SE ![] hE (constantI S0 32 0#32)) (ix1 e) = 0#1 := by
    show BitVec.ofBool ((idx (ix1 e)).slt 0#32) = 0#1
    rw [hs]
    rfl
  rw [hc, select_zero]

end Cert.GraphAgg

end
-- ==== Proof.Agg.lean ====
/-
  The law of sparse aggregation on the extended reals: normalising per edge equals normalising per node.

  With node features `h : [N, D]`, edges `e ↦ (src e, dst e)` and per-node weights `ns, nd : [N]`,
    row n ↦ ∑_{e : dst e = n} h[src e] · (ns[src e] · nd[dst e])   equals   row n ↦ (∑_{e : dst e = n} (h · ns)[src e]) · nd[n].
  Every edge that lands on row `n` has `dst e = n`, so the factor `nd[dst e]` is the constant `nd[n]` over the sum,
  and a constant factor that is a non-negative REAL distributes over any finite sum of extended reals (also over
  sums holding infinities of both signs). The weights are reciprocal square roots of clipped degrees, which are
  such reals.

  An edge index is read signed; the gathers first count a negative index from the end and clamp, the scatter drops
  an edge whose index is outside `[0, N)`. On an edge that the scatter keeps the index is in range, where counting
  from the end and clamping do nothing.
-/
import Idealize.ShloMosaic.PureOps.Ideal
import Idealize.ShloMosaic.PureOps.Ideal.Laws
import Idealize.ShloMosaic.PureOps.Contract
import Idealize.ShloMosaic.Lib.ValueIdx
import Idealize.ShloMosaic.Lib.Pipeline.Value
import proofs.«159424_j21105469293089_2_alg».proof.Proof.AggDefs
import proofs.«159424_j21105469293089_2_alg».proof.Proof.AggIdx

noncomputable section

namespace Cert.GraphAgg

open Idealize.ShloMosaic Idealize.ShloMosaic.ValueIdx

variable (wfS : ScatterDims.WF SND SE1 SED [1] [0] [0] 1) (wfs : ScatterDims.WF SN SE1 SE [] [0] [0] 1)
  (wfG : GatherDims.WF SND SE1 SED [1] [0] [] [0] [] 1 ![1, 128]) (wfg : GatherDims.WF SN SE1 SE [] [0] [] [0] [] 1 ![1])
  (hE : S0.BroadcastsInDim SE (![] : Fin 0 → Fin 1)) (hN : S0.BroadcastsInDim SN (![] : Fin 0 → Fin 1))
  (hND : S0.BroadcastsInDim SND (![] : Fin 0 → Fin 2))
  (hE1 : SE.BroadcastsInDim SE1 (![0] : Fin 1 → Fin 2)) (hED : SE1.BroadcastsInDim SED (![0, 1] : Fin 2 → Fin 2))
  (hN1 : SN.BroadcastsInDim SN1 (![0] : Fin 1 → Fin 2)) (hN1D : SN1.BroadcastsInDim SND (![0, 1] : Fin 2 → Fin 2))

/-! ## Words and sums of extended reals -/

/-- The f32 word `0x3F800000` is the real number one. -/
theorem ofBits_one_f32 : Ideal.ofBits .f32 0x3F800000#32 = ((1 : ℝ) : EReal) := by
  have h : ((8388608 : ℝ) * ((2 : ℝ) ^ 23)⁻¹ : ℝ) = 1 := by norm_num
  simp [Ideal.ofBits, Ideal.ieee]
  rw [← EReal.coe_mul, h]
  rfl

/-- The embedding of the reals commutes with the maximum. -/
theorem coe_max_real (a b : ℝ) : max (a : EReal) (b : EReal) = ((max a b : ℝ) : EReal) :=
  (EReal.coe_strictMono.monotone.map_max).symm

/-- A finite sum of one non-negative real, repeated, is a non-negative real. -/
theorem sum_const_real {ι : Type*} (s : Finset ι) (c : ℝ) (hc : 0 ≤ c) :
    ∃ r : ℝ, 0 ≤ r ∧ (∑ _j ∈ s, ((c : ℝ) : EReal)) = (r : EReal) := by
  classical
  induction s using Finset.induction_on with
  | empty => exact ⟨0, le_refl _, by simp⟩
  | insert a s ha ih =>
    obtain ⟨r, hr, e⟩ := ih
    refine ⟨c + r, add_nonneg hc hr, ?_⟩
    rw [Finset.sum_insert ha, e, EReal.coe_add]

/-- The reciprocal square root of a positive real is a non-negative real. -/
theorem rsqrt_pos_real (m : ℝ) (hm : 0 < m) : Ideal.rsqrt (m : EReal) = (((Real.sqrt m)⁻¹ : ℝ) : EReal) := by
  show (if m < 0 then (⊥ : EReal) else if m = 0 then ⊤ else ((Real.sqrt m)⁻¹ : ℝ)) = _
  rw [if_neg (not_lt.mpr hm.le), if_neg hm.ne']

/-! ## The host operations read at an index (for any shapes: definitional) -/

/-- The updates of a scatter that land on element `i` of the operand. -/
def landing {s si u : Shape} {w : Nat} (d : ScatterDims s si u) (idx : IVec si w) (i : s.Idx) : Finset u.Idx :=
  Finset.univ.filter (fun j => d.resultIdx? j idx = some i)

/-- An update in that set has result index `i`. -/
theorem of_mem_landing {s si u : Shape} {w : Nat} {d : ScatterDims s si u} {idx : IVec si w} {i : s.Idx} {j : u.Idx}
    (hj : j ∈ landing d idx i) : d.resultIdx? j idx = some i :=
  (Finset.mem_filter.mp hj).2

/-- The host's accumulating scatter at an index: the operand's element plus the sum of the updates that land on it. -/
theorem scatterAdd_apply {s si u : Shape} {w : Nat} (d : ScatterDims s si u) (x : FVec Ideal s .f32) (idx : IVec si w)
    (upd : FVec Ideal u .f32) (i : s.Idx) :
    Host.scatterAdd d x idx upd i = x i + ∑ j ∈ landing d idx i, upd j := rfl

/-- The host's reciprocal square root at an index is the extended reals' of the element. -/
theorem rsqrt_apply {s : Shape} (x : FVec Ideal s .f32) (i : s.Idx) : Host.rsqrt x i = Ideal.rsqrt (x i) := rfl

/-- A broadcast splat constant reads the extended real its word encodes, everywhere. -/
theorem bcast_const_apply {s t : Shape} (dims : Fin s.rank → Fin t.rank) (h : s.BroadcastsInDim t dims) (w : BitVec 32)
    (j : t.Idx) : broadcastInDim t dims h (constant (F := Ideal) s .f32 w) j = Ideal.ofBits .f32 w := rfl

/-- The reciprocal square root of a count of ones clipped below at one is a non-negative real, whatever finite set
    is counted. -/
theorem rsqrt_clip_count_real {ι : Type*} (F : Finset ι) :
    ∃ r : ℝ, 0 ≤ r ∧ Ideal.rsqrt (max (Ideal.ofBits .f32 0x3F800000#32)
      (Ideal.ofBits .f32 0x00000000#32 + ∑ _j ∈ F, Ideal.ofBits .f32 0x3F800000#32)) = (r : EReal) := by
  obtain ⟨r, hr, e⟩ := sum_const_real F 1 zero_le_one
  rw [ofBits_one_f32, Ideal.ofBits_zero_f32, e, zero_add, coe_max_real,
    rsqrt_pos_real _ (lt_of_lt_of_le zero_lt_one (le_max_left _ _))]
  exact ⟨_, inv_nonneg.mpr (Real.sqrt_nonneg _), rfl⟩

/-- A normalisation weight is a non-negative real number: a degree is a finite sum of ones, clipped it is a real at
    least one, and the reciprocal square root of a positive real is a positive real. -/
theorem norm_real (idx : IVec SE 32) (n : SN.Idx) : ∃ r : ℝ, 0 ≤ r ∧ norm wfs hE hN hE1 idx n = (r : EReal) := by
  unfold norm
  rw [rsqrt_apply, maximumf_apply, scatterAdd_apply, bcast_const_apply, bcast_const_apply]
  simp only [bcast_const_apply]
  exact rsqrt_clip_count_real _

/-- A non-negative real factor distributes over any finite sum of extended reals, whatever infinities it holds. -/
theorem sum_mul_real {ι : Type*} (s : Finset ι) (f : ι → EReal) (c : ℝ) (hc : 0 ≤ c) :
    (∑ j ∈ s, f j) * (c : EReal) = ∑ j ∈ s, f j * (c : EReal) := by
  classical
  induction s using Finset.induction_on with
  | empty => rw [Finset.sum_empty, Finset.sum_empty, zero_mul]
  | insert a s ha ih =>
    rw [Finset.sum_insert ha, Finset.sum_insert ha,
      EReal.right_distrib_of_nonneg_of_ne_top (EReal.coe_nonneg.mpr hc) (EReal.coe_ne_top c), ih]

/-! ## The indexed operations read at an index -/

/-- A vector of per-row values as a one-column array, `[n] → [n, 1]`, reads the row's value. -/
theorem bcast_unit_apply {α : Type} {n : Nat} (hn : n ≠ 1)
    (h1 : (⟨1, ![n]⟩ : Shape).BroadcastsInDim ⟨2, ![n, 1]⟩ (![0] : Fin 1 → Fin 2))
    (v : (⟨1, ![n]⟩ : Shape).Idx → α) (e : Fin n) (z : Fin 1) :
    broadcastInDim ⟨2, ![n, 1]⟩ ![0] h1 v (ix2 e z) = v (ix1 e) := by
  refine broadcastInDim_apply _ _ _ _ _ (fun a => ?_)
  match a with
  | ⟨0, _⟩ => exact (if_neg hn).symm

/-- The one-column array broadcast along the rows, `[n, 1] → [n, d]`, reads the row's value. -/
theorem bcast_col_apply {α : Type} {n d : Nat} (hn : n ≠ 1)
    (h1 : (⟨1, ![n]⟩ : Shape).BroadcastsInDim ⟨2, ![n, 1]⟩ (![0] : Fin 1 → Fin 2))
    (h2 : (⟨2, ![n, 1]⟩ : Shape).BroadcastsInDim ⟨2, ![n, d]⟩ (![0, 1] : Fin 2 → Fin 2))
    (v : (⟨1, ![n]⟩ : Shape).Idx → α) (i : (⟨2, ![n, d]⟩ : Shape).Idx) :
    broadcastInDim ⟨2, ![n, d]⟩ ![0, 1] h2 (broadcastInDim ⟨2, ![n, 1]⟩ ![0] h1 v) i = v (ix1 (i 0)) := by
  have e2 : broadcastInDim ⟨2, ![n, d]⟩ ![0, 1] h2 (broadcastInDim ⟨2, ![n, 1]⟩ ![0] h1 v) i
      = broadcastInDim ⟨2, ![n, 1]⟩ ![0] h1 v (ix2 (i 0) 0) := by
    refine broadcastInDim_apply _ _ _ _ _ (fun a => ?_)
    match a with
    | ⟨0, _⟩ => exact (if_neg hn).symm
    | ⟨1, _⟩ => exact (if_pos rfl).symm
  exact e2.trans (bcast_unit_apply hn h1 v (i 0) 0)

/-- The array of zeros reads the extended real zero. -/
theorem zeros_apply (i : SND.Idx) : zeros hND i = 0 := by
  unfold zeros
  rw [bcast_const_apply, Ideal.ofBits_zero_f32]

/-- THE LAW: with `nd` real and non-negative, normalising per edge and per node give the same array. -/
theorem aggEdge_eq_aggNode (h : FVec Ideal SND .f32) (src dst : IVec SE 32) (ns nd : FVec Ideal SN .f32)
    (hnd : ∀ n, ∃ r : ℝ, 0 ≤ r ∧ nd n = (r : EReal)) :
    aggEdge wfS wfG wfg hE hND hE1 hED h src dst ns nd = aggNode wfS wfG hE hND hE1 hN1 hN1D h src dst ns nd := by
  funext i
  obtain ⟨r, hr, hc⟩ := hnd (ix1 (i 0))
  unfold aggEdge aggNode
  rw [mulf_apply, scatterAdd_apply, scatterAdd_apply, bcast_col_apply (by decide) hN1 hN1D nd i, hc, zeros_apply,
    zero_add, zero_add, sum_mul_real _ _ r hr]
  refine Finset.sum_congr rfl (fun j hj => ?_)
  -- an edge that lands on row `i 0` has that destination, in range: counting from the end and clamping do nothing
  have hl : (dst (ix1 (j 0))).toInt = ((i 0).val : Int) := by
    have hl' := rowScatter_landed wfS _ j i (of_mem_landing hj)
    rwa [bcast_unit_apply (by decide) hE1 dst (j 0) 0] at hl'
  have hw : broadcastInDim SE1 ![0] hE1 (wrap hE dst) (ix2 (j 0) 0) = dst (ix1 (j 0)) := by
    rw [bcast_unit_apply (by decide) hE1 _ (j 0) 0, wrap_of_landed hE dst (j 0) (i 0) hl]
  have hcl : clampRow (broadcastInDim SE1 ![0] hE1 (wrap hE dst)) (j 0) = i 0 :=
    clampRow_of_landed _ (j 0) (i 0) (by rw [hw]; exact hl)
  have hd : Host.gather (vecGather wfg) nd (broadcastInDim SE1 ![0] hE1 (wrap hE dst)) (ix1 (j 0)) = (r : EReal) := by
    rw [vecGather_apply]
    show nd (ix1 (clampRow _ (j 0))) = _
    rw [hcl, hc]
  rw [mulf_apply, bcast_col_apply (by decide) hE1 hED _ j, mulf_apply, hd, rowGather_apply, rowGather_apply, mulf_apply,
    bcast_col_apply (by decide) hN1 hN1D ns, vecGather_apply, ← mul_assoc]

end Cert.GraphAgg

end
-- ==== Proof.Net.lean ====
/-
  The three-layer network as one function of its nine arguments, in the two arrangements of the normalisation:
  per edge before each aggregation (`netEdge`) and per node around it (`netNode`). Each layer aggregates neighbour
  features over the edges, multiplies by the layer's weights and adds its bias; the two hidden layers clip at zero.
  The normalisation weights are the reciprocal square roots of the clipped out-degrees (by `src`) and in-degrees
  (by `dst`), so they are non-negative reals and the aggregation law applies at every layer, whatever the features
  of that layer are: the two networks are one function.
-/
import proofs.«159424_j21105469293089_2_alg».proof.Proof.Agg
import proofs.«159424_j21105469293089_2_alg».proof.Proof.DenseSpec

noncomputable section

namespace Cert.Net

open Idealize.ShloMosaic Cert.GraphAgg Cert.Dense

variable (wfS : ScatterDims.WF GraphAgg.SND SE1 SED [1] [0] [0] 1) (wfs : ScatterDims.WF SN SE1 SE [] [0] [0] 1)
  (wfG : GatherDims.WF GraphAgg.SND SE1 SED [1] [0] [] [0] [] 1 ![1, 128]) (wfg : GatherDims.WF SN SE1 SE [] [0] [] [0] [] 1 ![1])
  (hE : S0.BroadcastsInDim SE (![] : Fin 0 → Fin 1)) (hN : S0.BroadcastsInDim SN (![] : Fin 0 → Fin 1))
  (hND : S0.BroadcastsInDim GraphAgg.SND (![] : Fin 0 → Fin 2))
  (hE1 : SE.BroadcastsInDim SE1 (![0] : Fin 1 → Fin 2)) (hED : SE1.BroadcastsInDim SED (![0, 1] : Fin 2 → Fin 2))
  (hN1 : SN.BroadcastsInDim SN1 (![0] : Fin 1 → Fin 2)) (hN1D : SN1.BroadcastsInDim GraphAgg.SND (![0, 1] : Fin 2 → Fin 2))

/-- Normalisation per edge. -/
def netEdge (x : FVec Ideal GraphAgg.SND .f32) (src dst : IVec SE 32)
    (W0 : SDD.Idx → EReal) (b0 : SD.Idx → EReal) (W1 : SDD.Idx → EReal) (b1 : SD.Idx → EReal) (W2 : SDD.Idx → EReal) (b2 : SD.Idx → EReal) :
    Dense.SND.Idx → EReal :=
  affine (aggEdge wfS wfG wfg hE hND hE1 hED
    (affineRelu (aggEdge wfS wfG wfg hE hND hE1 hED
      (affineRelu (aggEdge wfS wfG wfg hE hND hE1 hED x src dst (GraphAgg.norm wfs hE hN hE1 src) (GraphAgg.norm wfs hE hN hE1 dst)) W0 b0)
      src dst (GraphAgg.norm wfs hE hN hE1 src) (GraphAgg.norm wfs hE hN hE1 dst)) W1 b1)
    src dst (GraphAgg.norm wfs hE hN hE1 src) (GraphAgg.norm wfs hE hN hE1 dst)) W2 b2

/-- Normalisation per node. -/
def netNode (x : FVec Ideal GraphAgg.SND .f32) (src dst : IVec SE 32)
    (W0 : SDD.Idx → EReal) (b0 : SD.Idx → EReal) (W1 : SDD.Idx → EReal) (b1 : SD.Idx → EReal) (W2 : SDD.Idx → EReal) (b2 : SD.Idx → EReal) :
    Dense.SND.Idx → EReal :=
  affine (aggNode wfS wfG hE hND hE1 hN1 hN1D
    (affineRelu (aggNode wfS wfG hE hND hE1 hN1 hN1D
      (affineRelu (aggNode wfS wfG hE hND hE1 hN1 hN1D x src dst (GraphAgg.norm wfs hE hN hE1 src) (GraphAgg.norm wfs hE hN hE1 dst)) W0 b0)
      src dst (GraphAgg.norm wfs hE hN hE1 src) (GraphAgg.norm wfs hE hN hE1 dst)) W1 b1)
    src dst (GraphAgg.norm wfs hE hN hE1 src) (GraphAgg.norm wfs hE hN hE1 dst)) W2 b2

/-- The two arrangements agree: the aggregation law at each of the three layers. -/
theorem netEdge_eq_netNode (x : FVec Ideal GraphAgg.SND .f32) (src dst : IVec SE 32)
    (W0 : SDD.Idx → EReal) (b0 : SD.Idx → EReal) (W1 : SDD.Idx → EReal) (b1 : SD.Idx → EReal) (W2 : SDD.Idx → EReal) (b2 : SD.Idx → EReal) :
    netEdge wfS wfs wfG wfg hE hN hND hE1 hED x src dst W0 b0 W1 b1 W2 b2
      = netNode wfS wfs wfG hE hN hND hE1 hN1 hN1D x src dst W0 b0 W1 b1 W2 b2 := by
  have hd : ∀ n, ∃ r : ℝ, 0 ≤ r ∧ GraphAgg.norm wfs hE hN hE1 dst n = (r : EReal) := fun n => GraphAgg.norm_real wfs hE hN hE1 dst n
  unfold netEdge netNode
  rw [aggEdge_eq_aggNode wfS wfG wfg hE hND hE1 hED hN1 hN1D x src dst _ _ hd]
  rw [aggEdge_eq_aggNode wfS wfG wfg hE hND hE1 hED hN1 hN1D _ src dst _ _ hd]
  rw [aggEdge_eq_aggNode wfS wfG wfg hE hND hE1 hED hN1 hN1D _ src dst _ _ hd]

end Cert.Net

end
-- ==== Proof.DenseHost.lean ====
/-
  The reference's dense layer — one whole `dot_general` of the [100000, 128] activations with the [128, 128] weights,
  the bias broadcast along the rows, and for a hidden layer the maximum with a zero array — read at an index: it is
  `Dense.affine` (`Dense.affineRelu`) of its three operands.
-/
import proofs.«159424_j21105469293089_2_alg».proof.ReferenceIdeal
import proofs.«159424_j21105469293089_2_alg».proof.Proof.DenseSpec
import Idealize.ShloMosaic.PureOps.Ideal.Laws
import Idealize.ShloMosaic.Lib.Pipeline.Value
import Idealize.ShloMosaic.Lib.ValueIdx

noncomputable section

namespace Cert.Dense.Host

open Idealize.ShloMosaic Idealize.ShloMosaic.ValueIdx Cert.ReferenceIdeal Cert.ReferenceIdeal.Facts₀

variable [Cert.ReferenceIdeal.Facts]

/-! ## The product's two operand indices

The dimension numbers contract the left operand's axis 1 with the right operand's axis 0 and keep the left axis 0 and
the right axis 1, in that order, as the result's two axes. So at result index `i = (n, d)` and contraction coordinate
`k` the left operand is read at `(n, k)` and the right one at `(k, d)`. -/

/-- The one-axis contraction index of the product is its coordinate in `Fin 128`. -/
abbrev contrE : dot_S100000x128_S128x128_S100000x128_1_0_0_1_n_n.contr.Idx ≃ Fin 128 :=
  contrEquiv1 dot_S100000x128_S128x128_S100000x128_1_0_0_1_n_n 128 rfl rfl

/-- The left operand at result index `i`, contraction coordinate `k`, is read at `(i 0, k)`. -/
theorem lhsIdx_eq (i : S100000x128.Idx) (k : Fin 128) :
    dot_S100000x128_S128x128_S100000x128_1_0_0_1_n_n.lhsIdx i (contrE.symm k) = ix2 (i 0) k := by
  have hk := contrEquiv1_symm_val dot_S100000x128_S128x128_S100000x128_1_0_0_1_n_n 128 rfl rfl k
  funext a
  apply Fin.ext
  match a with
  | ⟨0, _⟩ =>
    show (dot_S100000x128_S128x128_S100000x128_1_0_0_1_n_n.lhsIdx i (contrE.symm k) 0).val = (i 0).val
    unfold DotDims.lhsIdx
    rw [dif_neg (show ¬(0 : Fin S100000x128.rank) ∈ dot_S100000x128_S128x128_S100000x128_1_0_0_1_n_n.lhsBatch from List.not_mem_nil),
      dif_pos (show (0 : Fin S100000x128.rank) ∈ dot_S100000x128_S128x128_S100000x128_1_0_0_1_n_n.lhsNonContracting from List.mem_cons_self)]
    rfl
  | ⟨1, _⟩ =>
    exact (dot_S100000x128_S128x128_S100000x128_1_0_0_1_n_n.lhsIdx_val_of_single rfl i (contrE.symm k)).trans hk

/-- The right operand at result index `i`, contraction coordinate `k`, is read at `(k, i 1)`. -/
theorem rhsIdx_eq (i : S100000x128.Idx) (k : Fin 128) :
    dot_S100000x128_S128x128_S100000x128_1_0_0_1_n_n.rhsIdx i (contrE.symm k) = ix2 k (i 1) := by
  have hk := contrEquiv1_symm_val dot_S100000x128_S128x128_S100000x128_1_0_0_1_n_n 128 rfl rfl k
  funext a
  apply Fin.ext
  match a with
  | ⟨0, _⟩ =>
    exact (dot_S100000x128_S128x128_S100000x128_1_0_0_1_n_n.rhsIdx_val_of_single rfl i (contrE.symm k)).trans hk
  | ⟨1, _⟩ =>
    show (dot_S100000x128_S128x128_S100000x128_1_0_0_1_n_n.rhsIdx i (contrE.symm k) 1).val = (i 1).val
    unfold DotDims.rhsIdx
    rw [dif_neg (show ¬(1 : Fin S128x128.rank) ∈ dot_S100000x128_S128x128_S100000x128_1_0_0_1_n_n.rhsBatch from List.not_mem_nil),
      dif_pos (show (1 : Fin S128x128.rank) ∈ dot_S100000x128_S128x128_S100000x128_1_0_0_1_n_n.rhsNonContracting from List.mem_cons_self)]
    rfl

/-! ## The three pieces of a layer, each read at an index -/

/-- The product: the sum over the 128 input features of the products of the entries. -/
theorem product_apply (A : FVec Ideal S100000x128 .f32) (W : FVec Ideal S128x128 .f32) (i : S100000x128.Idx) :
    Host.dotGeneral dot_S100000x128_S128x128_S100000x128_1_0_0_1_n_n none A W i = ∑ k : Fin 128, A (ix2 (i 0) k) * W (ix2 k (i 1)) := by
  simp only [Host.dotGeneral]
  rw [Ideal.dotGeneral_apply, ← Equiv.sum_comp contrE.symm]
  exact Finset.sum_congr rfl fun k _ =>
    congrArg₂ (· * ·) (congrArg A (lhsIdx_eq i k)) (congrArg W (rhsIdx_eq i k))

/-- The bias, given a leading unit axis and then repeated along the rows, reads `b[i 1]` in every row. -/
theorem bias_apply (b : FVec Ideal S128 .f32) (i : S100000x128.Idx) :
    broadcastInDim S100000x128 ![0, 1] bcast_S1x128_S100000x128_0_1 (broadcastInDim S1x128 ![1] bcast_S128_S1x128_1 b) i
      = b (ix1 (i 1)) := by
  refine (broadcastInDim_apply _ bcast_S1x128_S100000x128_0_1 _ i (ix2 (⟨0, Nat.one_pos⟩ : Fin 1) (i 1)) (fun a => ?_)).trans ?_
  · match a with
    | ⟨0, _⟩ => show 0 = if (1 : Nat) = 1 then 0 else (i 0).val; rw [if_pos rfl]
    | ⟨1, _⟩ => show (i 1).val = if (128 : Nat) = 1 then 0 else (i 1).val; rw [if_neg (by decide)]
  · exact broadcastInDim_apply _ bcast_S128_S1x128_1 b _ (ix1 (i 1)) (fun a => match a with
      | ⟨0, _⟩ => by show (i 1).val = if (128 : Nat) = 1 then 0 else (i 1).val; rw [if_neg (by decide)])

/-- The zero array: the scalar whose word is all zeros, repeated everywhere, reads the real number zero. -/
theorem zero_apply (i : S100000x128.Idx) :
    broadcastInDim S100000x128 ![] bcast_S_S100000x128 (constant (F := Ideal) S_ .f32 0x00000000#32) i = 0 := by
  refine (broadcastInDim_apply _ bcast_S_S100000x128 _ i (fun a => a.elim0) (fun a => a.elim0)).trans ?_
  rw [constant_apply, Ideal.ofBits_zero_f32]

/-! ## The two layers -/

/-- The output layer: matrix product plus bias. -/
theorem affine_eq (A : FVec Ideal S100000x128 .f32) (W : FVec Ideal S128x128 .f32) (b : FVec Ideal S128 .f32) :
    addf (Host.dotGeneral dot_S100000x128_S128x128_S100000x128_1_0_0_1_n_n none A W)
      (broadcastInDim S100000x128 ![0, 1] bcast_S1x128_S100000x128_0_1 (broadcastInDim S1x128 ![1] bcast_S128_S1x128_1 b))
    = Cert.Dense.affine A W b := by
  funext i
  exact congrArg₂ (· + ·) (product_apply A W i) (bias_apply b i)

/-- A hidden layer: the same clipped below at zero. -/
theorem affineRelu_eq (A : FVec Ideal S100000x128 .f32) (W : FVec Ideal S128x128 .f32) (b : FVec Ideal S128 .f32) :
    maximumf (addf (Host.dotGeneral dot_S100000x128_S128x128_S100000x128_1_0_0_1_n_n none A W)
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
    = Cert.Dense.affineRelu A W b := by
  funext i
  exact congrArg₂ max (congrArg₂ (· + ·) (product_apply A W i) (bias_apply b i)) (zero_apply i)

end Cert.Dense.Host

end
-- ==== Proof.RefValue.lean ====
/-
  The value of the idealized reference's result. Its run ends with the result at one composed term of the arguments:
  three times "scale the features by the source weight per node, gather along the edges' sources, sum into the edges'
  destinations, scale by the destination weight per node, multiply by the layer's weights and add its bias", the two
  hidden layers clipped at zero. Each dense layer read index by index is `Dense.affine` / `Dense.affineRelu`; what is
  left is, term for term, the network with the normalisation applied per node.
-/
import proofs.«159424_j21105469293089_2_alg».proof.Proof.Gen.ReferenceIdeal.Run
import proofs.«159424_j21105469293089_2_alg».proof.Proof.Net
import proofs.«159424_j21105469293089_2_alg».proof.Proof.DenseHost

set_option maxRecDepth 16384

noncomputable section

namespace Cert.ReferenceIdeal.RefValue

open Idealize.ShloMosaic Idealize.ShloMosaic.TcCoe
open Idealize.SL Idealize.SL.Sem
open Cert.ReferenceIdeal Cert.ReferenceIdeal.Gen

variable (m : (ℓ : Loc nD τ sig) → Buf (Elt Ideal) ℓ)

set_option maxRecDepth 200000 in
set_option maxHeartbeats 4000000 in
/-- The reference's result is the network normalised per node. -/
theorem res_eq (c : Dev nD) :
    (Value.res_main_v72 (F := Ideal) m c : S100000x128.Idx → EReal)
      = Cert.Net.netNode scatter_S100000x128_S1600000x1_S1600000x128_1_0_0_1_wf scatter_S100000_S1600000x1_S1600000_n_0_0_1_wf
          gather_S100000x128_S1600000x1_S1600000x128_1_0_n_n_0_1_1128_wf
          bcast_S_S1600000 bcast_S_S100000 bcast_S_S100000x128 bcast_S1600000_S1600000x1_0 bcast_S100000_S100000x1_0 bcast_S100000x1_S100000x128_0_1
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8)) := by
  unfold Value.res_main_v72
  rw [Cert.Dense.Host.affine_eq, Cert.Dense.Host.affineRelu_eq, Cert.Dense.Host.affineRelu_eq]
  rfl

end Cert.ReferenceIdeal.RefValue

end
-- ==== Proof.lean ====
/-
  A three-layer graph convolution, kernel against reference, on the extended reals.

  Both programs compute, per layer, `h ↦ (Â h) W + b` (the two hidden layers clipped below at zero), where `Â` sums
  over the edges `e` into the node `dst e` the row `h[src e]` scaled by `ns[src e] · nd[dst e]`, with `ns`, `nd` the
  reciprocal square roots of the out- and in-degrees clipped below at one. They differ in where the scaling happens:
    • the kernel's program multiplies each gathered row by the per-edge weight `ns[src e] · nd[dst e]` before the
      scatter-add, and computes `(·) W + b` in a tiled kernel over blocks of 10000 rows;
    • the reference scales the features by `ns` per node before the gather and the sums by `nd` per node after the
      scatter-add, and computes `(·) W + b` as one matrix product.
  At the exact instance a tiling of the rows does not change a matrix product, and the two placements of the scaling
  agree because every edge summed into node `n` has `dst e = n`, so `nd[dst e]` is the constant `nd[n]` over that sum,
  and a constant factor that is a NON-NEGATIVE REAL distributes over any finite sum of extended reals (`nd[n]` is the
  reciprocal square root of a real at least one). No finiteness of the features is used, so the precondition is never
  opened.

  The modules: `AggDefs`/`Agg` (the two aggregations and the law), `DenseSpec`/`DensePayload`/`DenseHost` (a dense
  layer index by index, in the kernel's body and in the reference), `Region0…2` (a region's blocks tile its output),
  `HostReads`/`HostKeeps` (what each host stretch computes and leaves alone), `KernelRun`/`KernelValue` (the kernel's
  run and the value of its result), `RefValue` (the value of the reference's result), `Net` (the two networks agree).
-/
import proofs.«159424_j21105469293089_2_alg».proof.Defs
import proofs.«159424_j21105469293089_2_alg».proof.Proof.Gen.Kernel
import proofs.«159424_j21105469293089_2_alg».proof.Proof.Gen.Kernel.Skeleton
import proofs.«159424_j21105469293089_2_alg».proof.Proof.Gen.Kernel.Launch
import proofs.«159424_j21105469293089_2_alg».proof.Proof.Gen.Kernel.Points
import proofs.«159424_j21105469293089_2_alg».proof.Proof.Gen.Kernel.Frame
import proofs.«159424_j21105469293089_2_alg».proof.Proof.Gen.KernelIdeal
import proofs.«159424_j21105469293089_2_alg».proof.Proof.Gen.KernelIdeal.Skeleton
import proofs.«159424_j21105469293089_2_alg».proof.Proof.Gen.KernelIdeal.Launch
import proofs.«159424_j21105469293089_2_alg».proof.Proof.Gen.KernelIdeal.Points
import proofs.«159424_j21105469293089_2_alg».proof.Proof.Gen.KernelIdeal.Frame
import proofs.«159424_j21105469293089_2_alg».proof.Proof.Gen.ReferenceIdeal
import proofs.«159424_j21105469293089_2_alg».proof.Proof.Gen.ReferenceIdeal.Run
import proofs.«159424_j21105469293089_2_alg».proof.Proof.Gen.ReferenceIdeal.Read
import proofs.«159424_j21105469293089_2_alg».proof.Proof.Gen.Pre_finite_inputs
import proofs.«159424_j21105469293089_2_alg».proof.Proof.KernelRun
import proofs.«159424_j21105469293089_2_alg».proof.Proof.KernelValue
import proofs.«159424_j21105469293089_2_alg».proof.Proof.RefValue
import proofs.«159424_j21105469293089_2_alg».proof.Proof.Net
import Idealize.ShloMosaic.Adequacy
import Idealize.ShloMosaic.Init

set_option maxRecDepth 16384

noncomputable section

namespace Cert.Proof

open Idealize.ShloMosaic Idealize.SL.Sem

/-- The network normalised per edge, of the kernel's argument arrays: what both programs end with. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v65) :=
  Cert.Net.netEdge Cert.KernelIdeal.Gen.scatter_S100000x128_S1600000x1_S1600000x128_1_0_0_1_wf Cert.KernelIdeal.Gen.scatter_S100000_S1600000x1_S1600000_n_0_0_1_wf Cert.KernelIdeal.Gen.gather_S100000x128_S1600000x1_S1600000x128_1_0_n_n_0_1_1128_wf Cert.KernelIdeal.Gen.gather_S100000_S1600000x1_S1600000_n_0_n_n_0_1_1_wf Cert.KernelIdeal.Gen.bcast_S_S1600000 Cert.KernelIdeal.Gen.bcast_S_S100000 Cert.KernelIdeal.Gen.bcast_S_S100000x128 Cert.KernelIdeal.Gen.bcast_S1600000_S1600000x1_0 Cert.KernelIdeal.Gen.bcast_S1600000x1_S1600000x128_0_1
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

/-- The kernel's result is the per-edge network: its last region's output layer of the aggregated second hidden layer,
    unfolded. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W10 m ρ c (Proc.devRef .tc Cert.KernelIdeal.main_v65) = result m c :=
  (Cert.KernelIdeal.Value.W10_v65 m ρ c).trans rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with `result` of the (agreeing) arguments: the kernel by the value of its fold, the reference by
    the value of its term and the aggregation law at each layer. -/
theorem algebraic : Cert.algebraic_KernelIdeal_ReferenceIdeal := by
  intro m ρ m' ρ' _ hagree
  refine ⟨fun c => result m c, ?_, ?_⟩
  · exact (θ_run Cert.KernelIdeal.defs _ _).mono (fun r h c => ⟨(h c).1.trans (kernel_result m ρ c), (h c).2⟩)
      (Cert.KernelIdeal.Result.run m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefValue.res_eq m' c).trans ?_
    obtain ⟨e0, e1, e2, e3, e4, e5, e6, e7, e8⟩ := hagree c
    rw [e0, e1, e2, e3, e4, e5, e6, e7, e8]
    exact (Cert.Net.netEdge_eq_netNode Cert.ReferenceIdeal.Gen.scatter_S100000x128_S1600000x1_S1600000x128_1_0_0_1_wf Cert.ReferenceIdeal.Gen.scatter_S100000_S1600000x1_S1600000_n_0_0_1_wf Cert.ReferenceIdeal.Gen.gather_S100000x128_S1600000x1_S1600000x128_1_0_n_n_0_1_1128_wf Cert.KernelIdeal.Gen.gather_S100000_S1600000x1_S1600000_n_0_n_n_0_1_1_wf Cert.ReferenceIdeal.Gen.bcast_S_S1600000 Cert.ReferenceIdeal.Gen.bcast_S_S100000 Cert.ReferenceIdeal.Gen.bcast_S_S100000x128 Cert.ReferenceIdeal.Gen.bcast_S1600000_S1600000x1_0 Cert.KernelIdeal.Gen.bcast_S1600000x1_S1600000x128_0_1
      Cert.ReferenceIdeal.Gen.bcast_S100000_S100000x1_0 Cert.ReferenceIdeal.Gen.bcast_S100000x1_S100000x128_0_1 _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
